-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x3 : Shape := ⟨3, ![64, 2048, 3]⟩
abbrev S64x2048 : Shape := ⟨2, ![64, 2048]⟩
abbrev S512x3 : Shape := ⟨2, ![512, 3]⟩
abbrev S_ : Shape := ⟨0, ![]⟩

class Facts : Prop where
  bcast_S_S64x2048x3 : S_.BroadcastsInDim S64x2048x3 (![] : Fin 0 → Fin S64x2048x3.rank)
  reducesTo_S64x2048x3_S_d0_1_2 : S64x2048x3.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S512x3 : S_.BroadcastsInDim S512x3 (![] : Fin 0 → Fin S512x3.rank)
  reducesTo_S512x3_S_d0_1 : S512x3.ReducesTo [0, 1] S_

variable [Facts]

def fn_part1 {F : FTy → Type} [FloatOps F] (main_v13 : IVec S_ 1) (main_v16 : IVec S512x3 1) : IVec S_ 1 :=
  let main_c_5 : IVec S_ 1 := constantI S_ 1 1#1
  let main_v17 : IVec S_ 1 := (fun x v => Host.reduce IntOp.andi x v reducesTo_S512x3_S_d0_1 h_S_) main_v16 main_c_5
  let main_v18 : IVec S_ 1 := andi main_v13 main_v17
  main_v18

def fn {F : FTy → Type} [FloatOps F] (main_arg0 : FVec F S64x2048x3 .f32) (main_arg1 : FVec F S64x2048 .f32) (main_arg2 : FVec F S512x3 .f32) (main_arg3 : FVec F S512x3 .f32) : IVec S_ 1 :=
  let main_v0 : FVec F S64x2048x3 .f32 := Host.absf main_arg0
  let main_cst : FVec F S_ .f32 := constant S_ .f32 0x7F800000#32
  let main_v1 : FVec F S64x2048x3 .f32 := broadcastInDim S64x2048x3 ![] bcast_S_S64x2048x3 main_cst
  let main_v2 : IVec S64x2048x3 1 := cmpf .olt main_v0 main_v1
  let main_c : IVec S_ 1 := constantI S_ 1 1#1
  let main_v3 : IVec S_ 1 := (fun x v => Host.reduce IntOp.andi x v reducesTo_S64x2048x3_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S512x3 .f32 := Host.absf main_arg2
  let main_cst_2 : FVec F S_ .f32 := constant S_ .f32 0x7F800000#32
  let main_v10 : FVec F S512x3 .f32 := broadcastInDim S512x3 ![] bcast_S_S512x3 main_cst_2
  let main_v11 : IVec S512x3 1 := cmpf .olt main_v9 main_v10
  let main_c_3 : IVec S_ 1 := constantI S_ 1 1#1
  let main_v12 : IVec S_ 1 := (fun x v => Host.reduce IntOp.andi x v reducesTo_S512x3_S_d0_1 h_S_) main_v11 main_c_3
  let main_v13 : IVec S_ 1 := andi main_v8 main_v12
  let main_v14 : FVec F S512x3 .f32 := Host.absf main_arg3
  let main_cst_4 : FVec F S_ .f32 := constant S_ .f32 0x7F800000#32
  let main_v15 : FVec F S512x3 .f32 := broadcastInDim S512x3 ![] bcast_S_S512x3 main_cst_4
  let main_v16 : IVec S512x3 1 := cmpf .olt main_v14 main_v15
  fn_part1 (F := F) main_v13 main_v16
-- ==== Kernel.lean ====
abbrev S64x2048x3 : Shape := ⟨3, ![64, 2048, 3]⟩
abbrev S64x2048 : Shape := ⟨2, ![64, 2048]⟩
abbrev S512x3 : Shape := ⟨2, ![512, 3]⟩
abbrev S_ : Shape := ⟨0, ![]⟩
abbrev S512 : Shape := ⟨1, ![512]⟩
abbrev S512x1 : Shape := ⟨2, ![512, 1]⟩
abbrev S1x512 : Shape := ⟨2, ![1, 512]⟩
abbrev S8x512 : Shape := ⟨2, ![8, 512]⟩
abbrev S64x512 : Shape := ⟨2, ![64, 512]⟩
abbrev S8x256x3 : Shape := ⟨3, ![8, 256, 3]⟩
abbrev S8x256 : Shape := ⟨2, ![8, 256]⟩
abbrev S2048x3 : Shape := ⟨2, ![2048, 3]⟩
abbrev S2048x1 : Shape := ⟨2, ![2048, 1]⟩
abbrev S2048x8 : Shape := ⟨2, ![2048, 8]⟩
abbrev S2048x512 : Shape := ⟨2, ![2048, 512]⟩
abbrev S8x256x512 : Shape := ⟨3, ![8, 256, 512]⟩
abbrev S8x256x1 : Shape := ⟨3, ![8, 256, 1]⟩

abbrev nBuf : Space → Nat
  | .hbm => 43
  | .vmem => 8
  | .smem => 0
  | _ => 0

abbrev bufTy : (tb : Table) → Fin (tcTables nBuf tb) → BufTy
  | .hbm, ⟨0, _⟩ => ⟨S64x2048x3, .f32⟩
  | .hbm, ⟨1, _⟩ => ⟨S64x2048, .f32⟩
  | .hbm, ⟨2, _⟩ => ⟨S512x3, .f32⟩
  | .hbm, ⟨3, _⟩ => ⟨S512x3, .f32⟩
  | .hbm, ⟨4, _⟩ => ⟨S512x3, .f32⟩
  | .hbm, ⟨5, _⟩ => ⟨S512x3, .f32⟩
  | .hbm, ⟨6, _⟩ => ⟨S512x3, .f32⟩
  | .hbm, ⟨7, _⟩ => ⟨S512x3, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S512x1, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512x1, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512x1, .f32⟩
  | .hbm, ⟨26, _⟩ => ⟨S512, .f32⟩
  | .hbm, ⟨27, _⟩ => ⟨S512x1, .f32⟩
  | .hbm, ⟨28, _⟩ => ⟨S512, .f32⟩
  | .hbm, ⟨29, _⟩ => ⟨S512x1, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S8x512, .f32⟩
  | .hbm, ⟨42, _⟩ => ⟨S64x512, .f32⟩
  | .local _ .vmem, ⟨0, _⟩ => ⟨S8x256x3, .f32⟩
  | .local _ .vmem, ⟨1, _⟩ => ⟨S8x256x3, .f32⟩
  | .local _ .vmem, ⟨2, _⟩ => ⟨S8x256, .f32⟩
  | .local _ .vmem, ⟨3, _⟩ => ⟨S8x256, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S64x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S512x3_S512_d1 : S512x3.ReducesTo [1] S512
  h_S_ : 0 < S_.numel
  slices_S512x3_S512x1_0_0 : S512x3.Slices ![0, 0] S512x1
  shapeCasts_S512x1_S512 : S512x1.ShapeCasts S512
  bcast_S_S512 : S_.BroadcastsInDim S512 (![] : Fin 0 → Fin S512.rank)
  slices_S512x3_S512x1_0_1 : S512x3.Slices ![0, 1] S512x1
  slices_S512x3_S512x1_0_2 : S512x3.Slices ![0, 2] S512x1
  bcast_S512_S1x512_1 : S512.BroadcastsInDim S1x512 (![1] : Fin 1 → Fin S1x512.rank)
  concatenates_S1x512_S1x512_S1x512_S1x512_S1x512_S1x512_S1x512_S1x512_S8x512_d0 : Shape.Concatenates [S1x512, S1x512, S1x512, S1x512, S1x512, S1x512, S1x512, S1x512] S8x512 0
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x256x3_S8x256x3_0_0_0 : ∀ a, (![0, 0, 0] : Fin 3 → Nat) a + S8x256x3.size a ≤ S8x256x3.size a
  h_S8x256x3 : 0 < S8x256x3.numel
  inb_S8x256_S8x256_0_0 : ∀ a, (![0, 0] : Fin 2 → Nat) a + S8x256.size a ≤ S8x256.size a
  h_S8x256 : 0 < S8x256.numel
  shapeCasts_S8x256x3_S2048x3 : S8x256x3.ShapeCasts S2048x3
  concatenates_S2048x3_S2048x3_S2048x1_S2048x1_S2048x8_d1 : Shape.Concatenates [S2048x3, S2048x3, S2048x1, S2048x1] S2048x8 1
  shapeCasts_S2048x512_S8x256x512 : S2048x512.ShapeCasts S8x256x512
  shapeCasts_S8x256_S8x256x1 : S8x256.ShapeCasts S8x256x1
  broadcasts_S8x256x1_S8x256x512 : S8x256x1.Broadcasts S8x256x512
  reduces_S8x256x512_S8x512 : S8x256x512.Reduces [1] S8x512
  dot_S2048x8_S8x512_S2048x512_1_0_0_1_n_n_wf : DotDims.WF S2048x8 S8x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S64x2048x3.size a
  hwx0_0 : ∀ i : grid0.Coords, EltTy.bits .f32 = 32 ∨ (Rect.block (s := S64x2048x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x2048.size a
  hwx0_1 : ∀ i : grid0.Coords, EltTy.bits .f32 = 32 ∨ (Rect.block (s := S64x2048) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x512.size a
  hwx0_3 : ∀ i : grid0.Coords, EltTy.bits .f32 = 32 ∨ (Rect.block (s := S64x512) S8x512.size (cc0_transform_3 i) (hinb0_3 i)).WholeWords (EltTy.packing .f32)

variable [Facts₀]

def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf

abbrev win0_0 : Pipeline.Window sig grid0 :=
  Pipeline.Window.ofSpec (Memref.whole main_arg0) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x2048x3 : Shape := ⟨3, ![64, 2048, 3]⟩
abbrev S64x2048 : Shape := ⟨2, ![64, 2048]⟩
abbrev S512x3 : Shape := ⟨2, ![512, 3]⟩
abbrev S_ : Shape := ⟨0, ![]⟩
abbrev S512 : Shape := ⟨1, ![512]⟩
abbrev S64x2048x512 : Shape := ⟨3, ![64, 2048, 512]⟩
abbrev S1x1x512 : Shape := ⟨3, ![1, 1, 512]⟩
abbrev S64x2048x1 : Shape := ⟨3, ![64, 2048, 1]⟩
abbrev S64x512 : Shape := ⟨2, ![64, 512]⟩

abbrev nBuf : Space → Nat
  | .hbm => 27
  | .vmem => 0
  | .smem => 0
  | _ => 0

abbrev bufTy : (tb : Table) → Fin (tcTables nBuf tb) → BufTy
  | .hbm, ⟨0, _⟩ => ⟨S64x2048x3, .f32⟩
  | .hbm, ⟨1, _⟩ => ⟨S64x2048, .f32⟩
  | .hbm, ⟨2, _⟩ => ⟨S512x3, .f32⟩
  | .hbm, ⟨3, _⟩ => ⟨S512x3, .f32⟩
  | .hbm, ⟨4, _⟩ => ⟨S512x3, .f32⟩
  | .hbm, ⟨5, _⟩ => ⟨S512x3, .f32⟩
  | .hbm, ⟨6, _⟩ => ⟨S512x3, .f32⟩
  | .hbm, ⟨7, _⟩ => ⟨S_, .f32⟩
  | .hbm, ⟨8, _⟩ => ⟨S512, .f32⟩
  | .hbm, ⟨9, _⟩ => ⟨S512x3, .f32⟩
  | .hbm, ⟨10, _⟩ => ⟨S64x2048x512, .f32⟩
  | .hbm, ⟨11, _⟩ => ⟨S64x2048x3, .f32⟩
  | .hbm, ⟨12, _⟩ => ⟨S64x2048x512, .f32⟩
  | .hbm, ⟨13, _⟩ => ⟨S1x1x512, .f32⟩
  | .hbm, ⟨14, _⟩ => ⟨S_, .f32⟩
  | .hbm, ⟨15, _⟩ => ⟨S64x2048x512, .f32⟩
  | .hbm, ⟨16, _⟩ => ⟨S64x2048x512, .f32⟩
  | .hbm, ⟨17, _⟩ => ⟨S64x2048x512, .f32⟩
  | .hbm, ⟨18, _⟩ => ⟨S64x2048x512, .f32⟩
  | .hbm, ⟨19, _⟩ => ⟨S64x2048x512, .f32⟩
  | .hbm, ⟨20, _⟩ => ⟨S64x2048x512, .f32⟩
  | .hbm, ⟨21, _⟩ => ⟨S64x2048x512, .f32⟩
  | .hbm, ⟨22, _⟩ => ⟨S64x2048x1, .f32⟩
  | .hbm, ⟨23, _⟩ => ⟨S64x2048x512, .f32⟩
  | .hbm, ⟨24, _⟩ => ⟨S64x2048x512, .f32⟩
  | .hbm, ⟨25, _⟩ => ⟨S_, .f32⟩
  | .hbm, ⟨26, _⟩ => ⟨S64x512, .f32⟩
  | _, _ => ⟨S64x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S512x3_S512_d1 : S512x3.ReducesTo [1] S512
  h_S_ : 0 < S_.numel
  bcast_S512_S1x1x512_2 : S512.BroadcastsInDim S1x1x512 (![2] : Fin 1 → Fin S1x1x512.rank)
  bcast_S_S64x2048x512 : S_.BroadcastsInDim S64x2048x512 (![] : Fin 0 → Fin S64x2048x512.rank)
  bcast_S1x1x512_S64x2048x512_0_1_2 : S1x1x512.BroadcastsInDim S64x2048x512 (![0, 1, 2] : Fin 3 → Fin S64x2048x512.rank)
  bcast_S64x2048_S64x2048x1_0_1 : S64x2048.BroadcastsInDim S64x2048x1 (![0, 1] : Fin 2 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  dot_S64x2048x3_S512x3_S64x2048x512_2_1_01_0_n_n_wf : DotDims.WF S64x2048x3 S512x3 S64x2048x512 [2] [1] [0, 1] [0] [] []

variable [Facts₀]

def dot_S64x2048x3_S512x3_S64x2048x512_2_1_01_0_n_n : DotDims S64x2048x3 S512x3 S64x2048x512 where
  lhsContracting := [2]
  rhsContracting := [1]
  lhsNonContracting := [0, 1]
  rhsNonContracting := [0]
  lhsBatch := []
  rhsBatch := []
  wf := dot_S64x2048x3_S512x3_S64x2048x512_2_1_01_0_n_n_wf

class Facts : Prop extends Facts₀ where

variable [Facts]
-- ==== Proof.BEntry.lean ====
/-
  The pallas_call's region as @main reaches it, and what its control depends on.

  @main computes the 8×512 weight block by 38 host operations and then enters the region. The region finds every
  buffer as those operations leave it; none of them writes an argument array, so the four arguments are found as
  launched. The grid has 64 points, `t = 8·i + p` with `i` the batch block and `p` the chunk of 256 points; the body
  branches twice on `p` alone: it clears its accumulator when `p = 0` and stores the output block when `p = 7`.
  The output window's block index depends on `i` only, so the pipeline writes it back exactly at the points with
  `p = 7` and the window is idle (nothing stored, nothing written back) at the others.
-/
import proofs.«105125_j77747497992595_2_alg».proof.Proof.Gen.Kernel.Launch
import proofs.«105125_j77747497992595_2_alg».proof.Proof.Gen.Kernel.Skeleton
import proofs.«105125_j77747497992595_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations that build the weight block. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is those operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, for any proof data whose arrays are the region-entry contents, leaves the
    four argument arrays as launched: the points and the masks are staged inputs (their arrays end as they were found),
    the centres and sharpnesses are staged by no window (every such buffer ends as the region found it). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two branch conditions -/

/-- "This is the first chunk": the condition under which the body clears its accumulator. -/
abbrev condFirst (i : grid0.Coords) : Prop := (Scalar.cmpi .ne (Scalar.extui (Scalar.cmpi .eq (BitVec.ofNat 32 (i 1).val) 0#32)) 0#32) = 1#1
/-- It holds at the points `t ≡ 0 (mod 8)`. -/
theorem hcondFirst : ∀ t : Fin cfg0.N, condFirst (grid0.coords t) ↔ t.val % 8 = 0 :=
  (by decide +kernel : ∀ t : Fin grid0.N, condFirst (grid0.coords t) ↔ t.val % 8 = 0)

/-- "This is the last chunk": the condition under which the body stores the output block. -/
abbrev condLast (i : grid0.Coords) : Prop := k0_cond2 i = 1#1
/-- It holds at the points `t ≡ 7 (mod 8)`. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last chunk the output window is idle, -/
theorem idle3 : ∀ t : Fin cfg0.N, ¬condLast (grid0.coords t) → cfg0.idle 3 (grid0.coords t) = true := by decide +kernel
/-- and the pipeline does not write its block back there. -/
theorem noFlush3 : ∀ t : Fin cfg0.N, ¬condLast (grid0.coords t) → (cfg0.win 3).flush t = false := by decide +kernel
/-- At the last chunk it is live. -/
theorem live3 : ∀ t : Fin cfg0.N, condLast (grid0.coords t) → cfg0.idle 3 (grid0.coords t) = false := by decide +kernel

/-! ## The memrefs the body is called with -/

/-- One staging buffer of the output window, through which its contents are stated (the choice does not matter). -/
abbrev VOut : View sig .tc .vmem S8x512 .f32 := (Memref.whole cc0_stg3_0 : Memref sig .tc .vmem S8x512 .f32).view
abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
/-- The accumulator: a whole scoped buffer of the kernel's own, carried from point to point. -/
abbrev accM : Memref sig .tc .vmem S8x512 .f32 := Memref.whole cc0_scratch0
abbrev VAcc : View sig .tc .vmem S8x512 .f32 := accM.view

/-- The class's region invariant with the accumulator as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Track

end
-- ==== Proof.BRunFirst.lean ====
/-
  The body at a point of the FIRST chunk (`p = 0`), run on whole staging memrefs.

  It clears the accumulator, loads the three input blocks, reads the accumulator back (now the cleared value), adds this
  chunk's contribution and stores the sum; it stores nothing into the output window, whose buffer it hands back as it
  found it. What the accumulator held before does not matter. The list of stores the run leaves in the accumulator is
  found by running the body, and is the witness of this definition.
-/
import proofs.«105125_j77747497992595_2_alg».proof.Proof.BEntry

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first chunk's run: the inputs at their blocks, the output buffer at any contents `xi3` handed back untouched, the
    accumulator at anything; afterwards the accumulator holds its stores `LS` written over whatever it held. -/
noncomputable def runFirst (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i)
    (x0 : Vec F S8x256x3 .f32) (x1 : Vec F S8x256 .f32) (x2 : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Track

end
-- ==== Proof.BRunMid.lean ====
/-
  The body at a point of a MIDDLE chunk (`0 < p < 7`), run on whole staging memrefs.

  It loads the three input blocks and the accumulator as the point before left it, adds this chunk's contribution and
  stores the sum; the output window's buffer is handed back as it was found.
-/
import proofs.«105125_j77747497992595_2_alg».proof.Proof.BRunFirst

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle chunk's run: as the first chunk's, with the accumulator at the contents `xs` the point before left. -/
noncomputable def runMid (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i)
    (x0 : Vec F S8x256x3 .f32) (x1 : Vec F S8x256 .f32) (x2 : Vec F S8x512 .f32) (xs : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Track

end
-- ==== Proof.BRunLast.lean ====
/-
  The body at a point of the LAST chunk (`p = 7`), run on whole staging memrefs.

  As a middle chunk, and then it reads the finished accumulator and stores it into the output window's buffer, covering
  it; what that buffer held before does not matter (the body reads it once and uses the value nowhere).
-/
import proofs.«105125_j77747497992595_2_alg».proof.Proof.BRunMid

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last chunk's run: the output buffer at anything; afterwards it holds its stores `L3`, the accumulator `LS`. -/
noncomputable def runLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i)
    (x0 : Vec F S8x256x3 .f32) (x1 : Vec F S8x256 .f32) (x2 : Vec F S8x512 .f32) (xs : Vec F S8x512 .f32) :
    Σ' (L3 : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Track

end
-- ==== Proof.BFrame.lean ====
/-
  The frame of the kernel as printed (its floats read as words): every weakly fair execution of @main terminates without a fault and leaves the four
  argument arrays as launched.

  The argument is an induction over the 64 grid points in the pipeline's order. After the body at point `t` the output
  window's buffer and the accumulator hold what the case of `t` leaves (`outsAt`): at a first chunk what the run from a
  cleared accumulator leaves, at a later chunk what the run leaves over the accumulator of the point before. Between
  points the region's invariant holds the accumulator at exactly that value (`PhiS`), so the next point's run may read
  it; before the first point and after the last one the invariant is the class's (the accumulator at anything).
  The body obligation is then, at each point, the run of the point's case; the launch theorem for a tracked invariant
  turns the obligation into the run of @main.
-/
import proofs.«105125_j77747497992595_2_alg».proof.Proof.BRunLast

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first chunk stores nothing into the output window: a placeholder that nothing consults (the window is idle there). -/
def outFirst3 (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) : Vec F S8x512 .f32 :=
  VOut.read (Elt F) (VOut.writes (Elt F) VOut.junk (runFirst c i arg2 harg2 arg3 harg3 arg4 harg4 arg5 harg5 arg6 harg6 hc0 hc1 x0 x1 x2).1)

/-- A first chunk's stores into the accumulator cover it. -/
theorem accCoverFirst (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) (y : S8x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S8x512.size (by sl_kernel_rfl) y

/-- What a first chunk leaves in the accumulator: its stores read back. -/
def accFirst (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) : Vec F S8x512 .f32 :=
  VAcc.read (Elt F) (VAcc.writes (Elt F) VAcc.junk (runFirst c i arg2 harg2 arg3 harg3 arg4 harg4 arg5 harg5 arg6 harg6 hc0 hc1 x0 x1 x2).2.1)

/-- A middle chunk stores nothing into the output window either. -/
def outMid3 (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) : Vec F S8x512 .f32 :=
  VOut.read (Elt F) (VOut.writes (Elt F) VOut.junk (runMid c i arg2 harg2 arg3 harg3 arg4 harg4 arg5 harg5 arg6 harg6 hc0 hc1 x0 x1 x2 xs).1)

theorem accCoverMid (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) (y : S8x512.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S8x512.size (by sl_kernel_rfl) y

/-- What a middle chunk leaves in the accumulator, over what the point before left (`xs`). -/
def accMid (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) : Vec F S8x512 .f32 :=
  VAcc.read (Elt F) (VAcc.writes (Elt F) VAcc.junk (runMid c i arg2 harg2 arg3 harg3 arg4 harg4 arg5 harg5 arg6 harg6 hc0 hc1 x0 x1 x2 xs).2.1)

/-- The last chunk's one store into the output window covers its block. -/
theorem outCoverLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) (y : S8x512.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S8x512.size (by sl_kernel_rfl) y

/-- What the last chunk leaves in the output window's buffer. -/
def outLast3 (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) : Vec F S8x512 .f32 :=
  VOut.read (Elt F) (VOut.writes (Elt F) VOut.junk (runLast c i arg2 harg2 arg3 harg3 arg4 harg4 arg5 harg5 arg6 harg6 hc0 hc1 x0 x1 x2 xs).1)

theorem accCoverLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) (y : S8x512.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S8x512.size (by sl_kernel_rfl) y

def accLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) : Vec F S8x512 .f32 :=
  VAcc.read (Elt F) (VAcc.writes (Elt F) VAcc.junk (runLast c i arg2 harg2 arg3 harg3 arg4 harg4 arg5 harg5 arg6 harg6 hc0 hc1 x0 x1 x2 xs).2.1)

/-! ## What the output buffer and the accumulator hold after each point -/

/-- The pair (output window's buffer, accumulator) after the body at position `n`: the case the closed forms select at
    `n`, run at that point's memrefs and input blocks, a later chunk over the accumulator the point before left. -/
def outsAt (c : Dev nD) : (n : ℕ) → n < cfg0.N → Vec F S8x512 .f32 × Vec F S8x512 .f32
  | 0, hn =>
    (outFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩),
     accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (outFirst3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩),
         accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩))
    else
      if h1 : (n + 1) % 8 = 7 then
        (outLast3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2)
      else
        (outMid3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2,
         accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2)

/-- `outsAt` at a first chunk. -/
theorem outsAt_first (c : Dev nD) (t : Fin cfg0.N) (h0 : t.val % 8 = 0) (h1 : ¬t.val % 8 = 7) :
    outsAt m c t.val t.isLt =
      (outFirst3 c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t),
       accFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t)) := by
  obtain ⟨n, hn⟩ := t
  cases n with
  | zero => exact rfl
  | succ n => exact (dif_pos h0).trans ((dif_neg h1).trans rfl)

/-- `outsAt` at a middle chunk: over what the point before left. -/
theorem outsAt_mid (c : Dev nD) (t : Fin cfg0.N) (h0 : ¬t.val % 8 = 0) (h1 : ¬t.val % 8 = 7) :
    outsAt m c t.val t.isLt =
      (outMid3 c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2,
       accMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last chunk: over what the point before left. -/
theorem outsAt_last (c : Dev nD) (t : Fin cfg0.N) (h0 : ¬t.val % 8 = 0) (h1 : t.val % 8 = 7) :
    outsAt m c t.val t.isLt =
      (outLast3 c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2,
       accLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: at `0` the class's invariant (the accumulator at anything); afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output's at `outsAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in; the
    invariant hands the run the accumulator (at what the point before left, or at anything before the first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val % 8 = 0
  · by_cases h1 : t.val % 8 = 7
    · exfalso; omega
    · rw [Dat.leavesExact_idle (dats m 0 c) 3 t (idle3 t (fun h => h1 ((hcondLast t).mp h))) (noFlush3 t (fun h => h1 ((hcondLast t).mp h)))]
      rw [outsAt_first m c t h0 h1]
      unfold accFirst; (try dsimp only)
      by_cases hz : t.val = 0
      · rw [PhiS_castSucc m c t, PhiS_zero m c _ _ hz, PhiA0_eq]
        iintro ⟨⟨HS, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (accCoverFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t))
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (accCoverFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t))
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 8 = 7
    · rw [show (dats m 0 c).leavesExact 3 t = owns (c : Thread nD τ) (ms3 t) fullShare ((dats m 0 c).after 3 t) from by
        unfold Dat.leavesExact; rw [live3 t ((hcondLast t).mpr h1)], after3]
      rw [outsAt_last m c t h0 h1]
      unfold outLast3 accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (accCoverLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) _)
    · rw [Dat.leavesExact_idle (dats m 0 c) 3 t (idle3 t (fun h => h1 ((hcondLast t).mp h))) (noFlush3 t (fun h => h1 ((hcondLast t).mp h)))]
      rw [outsAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim of the program, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Track

end
-- ==== Proof.IEntry.lean ====
/-
  The pallas_call's region as @main reaches it, and what its control depends on.

  @main computes the 8×512 weight block by 38 host operations and then enters the region. The region finds every
  buffer as those operations leave it; none of them writes an argument array, so the four arguments are found as
  launched. The grid has 64 points, `t = 8·i + p` with `i` the batch block and `p` the chunk of 256 points; the body
  branches twice on `p` alone: it clears its accumulator when `p = 0` and stores the output block when `p = 7`.
  The output window's block index depends on `i` only, so the pipeline writes it back exactly at the points with
  `p = 7` and the window is idle (nothing stored, nothing written back) at the others.
-/
import proofs.«105125_j77747497992595_2_alg».proof.Proof.Gen.KernelIdeal.Launch
import proofs.«105125_j77747497992595_2_alg».proof.Proof.Gen.KernelIdeal.Skeleton
import proofs.«105125_j77747497992595_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations that build the weight block. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is those operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, for any proof data whose arrays are the region-entry contents, leaves the
    four argument arrays as launched: the points and the masks are staged inputs (their arrays end as they were found),
    the centres and sharpnesses are staged by no window (every such buffer ends as the region found it). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two branch conditions -/

/-- "This is the first chunk": the condition under which the body clears its accumulator. -/
abbrev condFirst (i : grid0.Coords) : Prop := (Scalar.cmpi .ne (Scalar.extui (Scalar.cmpi .eq (BitVec.ofNat 32 (i 1).val) 0#32)) 0#32) = 1#1
/-- It holds at the points `t ≡ 0 (mod 8)`. -/
theorem hcondFirst : ∀ t : Fin cfg0.N, condFirst (grid0.coords t) ↔ t.val % 8 = 0 :=
  (by decide +kernel : ∀ t : Fin grid0.N, condFirst (grid0.coords t) ↔ t.val % 8 = 0)

/-- "This is the last chunk": the condition under which the body stores the output block. -/
abbrev condLast (i : grid0.Coords) : Prop := k0_cond2 i = 1#1
/-- It holds at the points `t ≡ 7 (mod 8)`. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last chunk the output window is idle, -/
theorem idle3 : ∀ t : Fin cfg0.N, ¬condLast (grid0.coords t) → cfg0.idle 3 (grid0.coords t) = true := by decide +kernel
/-- and the pipeline does not write its block back there. -/
theorem noFlush3 : ∀ t : Fin cfg0.N, ¬condLast (grid0.coords t) → (cfg0.win 3).flush t = false := by decide +kernel
/-- At the last chunk it is live. -/
theorem live3 : ∀ t : Fin cfg0.N, condLast (grid0.coords t) → cfg0.idle 3 (grid0.coords t) = false := by decide +kernel

/-! ## The memrefs the body is called with -/

/-- One staging buffer of the output window, through which its contents are stated (the choice does not matter). -/
abbrev VOut : View sig .tc .vmem S8x512 .f32 := (Memref.whole cc0_stg3_0 : Memref sig .tc .vmem S8x512 .f32).view
abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
/-- The accumulator: a whole scoped buffer of the kernel's own, carried from point to point. -/
abbrev accM : Memref sig .tc .vmem S8x512 .f32 := Memref.whole cc0_scratch0
abbrev VAcc : View sig .tc .vmem S8x512 .f32 := accM.view

/-- The class's region invariant with the accumulator as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Track

end
-- ==== Proof.IRunFirst.lean ====
/-
  The body at a point of the FIRST chunk (`p = 0`), run on whole staging memrefs.

  It clears the accumulator, loads the three input blocks, reads the accumulator back (now the cleared value), adds this
  chunk's contribution and stores the sum; it stores nothing into the output window, whose buffer it hands back as it
  found it. What the accumulator held before does not matter. The list of stores the run leaves in the accumulator is
  found by running the body, and is the witness of this definition.
-/
import proofs.«105125_j77747497992595_2_alg».proof.Proof.IEntry

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first chunk's run: the inputs at their blocks, the output buffer at any contents `xi3` handed back untouched, the
    accumulator at anything; afterwards the accumulator holds its stores `LS` written over whatever it held. -/
noncomputable def runFirst (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i)
    (x0 : Vec F S8x256x3 .f32) (x1 : Vec F S8x256 .f32) (x2 : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Track

end
-- ==== Proof.IRunMid.lean ====
/-
  The body at a point of a MIDDLE chunk (`0 < p < 7`), run on whole staging memrefs.

  It loads the three input blocks and the accumulator as the point before left it, adds this chunk's contribution and
  stores the sum; the output window's buffer is handed back as it was found.
-/
import proofs.«105125_j77747497992595_2_alg».proof.Proof.IRunFirst

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle chunk's run: as the first chunk's, with the accumulator at the contents `xs` the point before left. -/
noncomputable def runMid (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i)
    (x0 : Vec F S8x256x3 .f32) (x1 : Vec F S8x256 .f32) (x2 : Vec F S8x512 .f32) (xs : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Track

end
-- ==== Proof.IRunLast.lean ====
/-
  The body at a point of the LAST chunk (`p = 7`), run on whole staging memrefs.

  As a middle chunk, and then it reads the finished accumulator and stores it into the output window's buffer, covering
  it; what that buffer held before does not matter (the body reads it once and uses the value nowhere).
-/
import proofs.«105125_j77747497992595_2_alg».proof.Proof.IRunMid

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last chunk's run: the output buffer at anything; afterwards it holds its stores `L3`, the accumulator `LS`. -/
noncomputable def runLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i)
    (x0 : Vec F S8x256x3 .f32) (x1 : Vec F S8x256 .f32) (x2 : Vec F S8x512 .f32) (xs : Vec F S8x512 .f32) :
    Σ' (L3 : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Track

end
-- ==== Proof.IFrame.lean ====
/-
  The frame of the idealized kernel: every weakly fair execution of @main terminates without a fault and leaves the four
  argument arrays as launched.

  The argument is an induction over the 64 grid points in the pipeline's order. After the body at point `t` the output
  window's buffer and the accumulator hold what the case of `t` leaves (`outsAt`): at a first chunk what the run from a
  cleared accumulator leaves, at a later chunk what the run leaves over the accumulator of the point before. Between
  points the region's invariant holds the accumulator at exactly that value (`PhiS`), so the next point's run may read
  it; before the first point and after the last one the invariant is the class's (the accumulator at anything).
  The body obligation is then, at each point, the run of the point's case; the launch theorem for a tracked invariant
  turns the obligation into the run of @main.
-/
import proofs.«105125_j77747497992595_2_alg».proof.Proof.IRunLast

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first chunk stores nothing into the output window: a placeholder that nothing consults (the window is idle there). -/
def outFirst3 (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) : Vec F S8x512 .f32 :=
  VOut.read (Elt F) (VOut.writes (Elt F) VOut.junk (runFirst c i arg2 harg2 arg3 harg3 arg4 harg4 arg5 harg5 arg6 harg6 hc0 hc1 x0 x1 x2).1)

/-- A first chunk's stores into the accumulator cover it. -/
theorem accCoverFirst (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) (y : S8x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S8x512.size (by sl_kernel_rfl) y

/-- What a first chunk leaves in the accumulator: its stores read back. -/
def accFirst (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) : Vec F S8x512 .f32 :=
  VAcc.read (Elt F) (VAcc.writes (Elt F) VAcc.junk (runFirst c i arg2 harg2 arg3 harg3 arg4 harg4 arg5 harg5 arg6 harg6 hc0 hc1 x0 x1 x2).2.1)

/-- A middle chunk stores nothing into the output window either. -/
def outMid3 (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) : Vec F S8x512 .f32 :=
  VOut.read (Elt F) (VOut.writes (Elt F) VOut.junk (runMid c i arg2 harg2 arg3 harg3 arg4 harg4 arg5 harg5 arg6 harg6 hc0 hc1 x0 x1 x2 xs).1)

theorem accCoverMid (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) (y : S8x512.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S8x512.size (by sl_kernel_rfl) y

/-- What a middle chunk leaves in the accumulator, over what the point before left (`xs`). -/
def accMid (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) : Vec F S8x512 .f32 :=
  VAcc.read (Elt F) (VAcc.writes (Elt F) VAcc.junk (runMid c i arg2 harg2 arg3 harg3 arg4 harg4 arg5 harg5 arg6 harg6 hc0 hc1 x0 x1 x2 xs).2.1)

/-- The last chunk's one store into the output window covers its block. -/
theorem outCoverLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) (y : S8x512.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S8x512.size (by sl_kernel_rfl) y

/-- What the last chunk leaves in the output window's buffer. -/
def outLast3 (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) : Vec F S8x512 .f32 :=
  VOut.read (Elt F) (VOut.writes (Elt F) VOut.junk (runLast c i arg2 harg2 arg3 harg3 arg4 harg4 arg5 harg5 arg6 harg6 hc0 hc1 x0 x1 x2 xs).1)

theorem accCoverLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) (y : S8x512.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S8x512.size (by sl_kernel_rfl) y

def accLast (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) : Vec F S8x512 .f32 :=
  VAcc.read (Elt F) (VAcc.writes (Elt F) VAcc.junk (runLast c i arg2 harg2 arg3 harg3 arg4 harg4 arg5 harg5 arg6 harg6 hc0 hc1 x0 x1 x2 xs).2.1)

/-! ## What the output buffer and the accumulator hold after each point -/

/-- The pair (output window's buffer, accumulator) after the body at position `n`: the case the closed forms select at
    `n`, run at that point's memrefs and input blocks, a later chunk over the accumulator the point before left. -/
def outsAt (c : Dev nD) : (n : ℕ) → n < cfg0.N → Vec F S8x512 .f32 × Vec F S8x512 .f32
  | 0, hn =>
    (outFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩),
     accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (outFirst3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩),
         accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩))
    else
      if h1 : (n + 1) % 8 = 7 then
        (outLast3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2)
      else
        (outMid3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2,
         accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2)

/-- `outsAt` at a first chunk. -/
theorem outsAt_first (c : Dev nD) (t : Fin cfg0.N) (h0 : t.val % 8 = 0) (h1 : ¬t.val % 8 = 7) :
    outsAt m c t.val t.isLt =
      (outFirst3 c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t),
       accFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t)) := by
  obtain ⟨n, hn⟩ := t
  cases n with
  | zero => exact rfl
  | succ n => exact (dif_pos h0).trans ((dif_neg h1).trans rfl)

/-- `outsAt` at a middle chunk: over what the point before left. -/
theorem outsAt_mid (c : Dev nD) (t : Fin cfg0.N) (h0 : ¬t.val % 8 = 0) (h1 : ¬t.val % 8 = 7) :
    outsAt m c t.val t.isLt =
      (outMid3 c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2,
       accMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last chunk: over what the point before left. -/
theorem outsAt_last (c : Dev nD) (t : Fin cfg0.N) (h0 : ¬t.val % 8 = 0) (h1 : t.val % 8 = 7) :
    outsAt m c t.val t.isLt =
      (outLast3 c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2,
       accLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: at `0` the class's invariant (the accumulator at anything); afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output's at `outsAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in; the
    invariant hands the run the accumulator (at what the point before left, or at anything before the first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val % 8 = 0
  · by_cases h1 : t.val % 8 = 7
    · exfalso; omega
    · rw [Dat.leavesExact_idle (dats m 0 c) 3 t (idle3 t (fun h => h1 ((hcondLast t).mp h))) (noFlush3 t (fun h => h1 ((hcondLast t).mp h)))]
      rw [outsAt_first m c t h0 h1]
      unfold accFirst; (try dsimp only)
      by_cases hz : t.val = 0
      · rw [PhiS_castSucc m c t, PhiS_zero m c _ _ hz, PhiA0_eq]
        iintro ⟨⟨HS, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (accCoverFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t))
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (accCoverFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk m c 0 t) (iblk m c 1 t) (iblk m c 2 t))
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 8 = 7
    · rw [show (dats m 0 c).leavesExact 3 t = owns (c : Thread nD τ) (ms3 t) fullShare ((dats m 0 c).after 3 t) from by
        unfold Dat.leavesExact; rw [live3 t ((hcondLast t).mpr h1)], after3]
      rw [outsAt_last m c t h0 h1]
      unfold outLast3 accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (accCoverLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (iblk m c 2 t) _)
    · rw [Dat.leavesExact_idle (dats m 0 c) 3 t (idle3 t (fun h => h1 ((hcondLast t).mp h))) (noFlush3 t (fun h => h1 ((hcondLast t).mp h)))]
      rw [outsAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (iblk m c 2 t) _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim of the program, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Track

end
-- ==== Proof.IBlocks.lean ====
/-
  Where a window's block sits in its array.

  At grid point `t = 8·i + p` the points' window holds rows `8i … 8i+7` of the batch axis and points `256p … 256p+255`,
  the masks' window the same rows and points, the weight block's window the whole 8×512 block, and the output's window
  rows `8i … 8i+7` and all 512 centres. An element of a block is the array's element at block index × block size + its
  own coordinate, axis by axis; the block indices are decided once over the 64 points.
-/
import proofs.«105125_j77747497992595_2_alg».proof.Proof.IEntry
import Idealize.ShloMosaic.Lib.Pipeline.Value
import Idealize.ShloMosaic.Lib.ValueIdx

set_option maxRecDepth 16384

noncomputable section

namespace Cert.KernelIdeal.Track

open Idealize.ShloMosaic Idealize.ShloMosaic.TcCoe Idealize.ShloMosaic.ValueIdx
open Idealize.SL Idealize.SL.Sem
open Idealize.ShloMosaic.Pipeline (Dat Cfg Window)
open Cert.KernelIdeal.Gen

/-- The four windows' block indices at every grid point. -/
theorem index_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = t.val / 8 ∧ win0_1.index t (1 : Fin 2) = t.val % 8)
    ∧ (win0_2.index t (0 : Fin 2) = 0 ∧ win0_2.index t (1 : Fin 2) = 0)
    ∧ (win0_3.index t (0 : Fin 2) = t.val / 8 ∧ win0_3.index t (1 : Fin 2) = 0) :=
  (by decide +kernel : ∀ t : Fin grid0.N, _)

variable (c : Dev nD)

/-- The points' block at `t`, read at `(b, q, d)`, is the array at row `8·(t/8) + b`, point `256·(t%8) + q`. -/
theorem blk0_read (A : Buf (Elt Ideal) ((cfg0.win 0).arr.view.loc (c.tc : Thread nD τ))) (t : Fin cfg0.N)
    (b : Fin 8) (q : Fin 256) (d : Fin 3) (B : Fin 64) (p : Fin 2048)
    (hB : B.val = 8 * (t.val / 8) + b.val) (hp : p.val = 256 * (t.val % 8) + q.val) :
    ((cfg0.win 0).blk t).view.read (Elt Ideal) A (ix3 b q d) = A (ix3 B p d) := by
  show A (((cfg0.win 0).blk t).view.emb (ix3 b q d)) = A (ix3 B p d)
  refine congrArg A (funext fun a => Fin.ext ?_)
  match a with
  | ⟨0, _⟩ => show win0_0.index t (0 : Fin 3) * 8 + 1 * b.val = B.val; rw [(index_facts t).1.1, hB]; omega
  | ⟨1, _⟩ => show win0_0.index t (1 : Fin 3) * 256 + 1 * q.val = p.val; rw [(index_facts t).1.2.1, hp]; omega
  | ⟨2, _⟩ => show win0_0.index t (2 : Fin 3) * 3 + 1 * d.val = d.val; rw [(index_facts t).1.2.2]; omega

/-- The masks' block at `t`, read at `(b, q)`. -/
theorem blk1_read (A : Buf (Elt Ideal) ((cfg0.win 1).arr.view.loc (c.tc : Thread nD τ))) (t : Fin cfg0.N)
    (b : Fin 8) (q : Fin 256) (B : Fin 64) (p : Fin 2048)
    (hB : B.val = 8 * (t.val / 8) + b.val) (hp : p.val = 256 * (t.val % 8) + q.val) :
    ((cfg0.win 1).blk t).view.read (Elt Ideal) A (ix2 b q) = A (ix2 B p) := by
  show A (((cfg0.win 1).blk t).view.emb (ix2 b q)) = A (ix2 B p)
  refine congrArg A (funext fun a => Fin.ext ?_)
  match a with
  | ⟨0, _⟩ => show win0_1.index t (0 : Fin 2) * 8 + 1 * b.val = B.val; rw [(index_facts t).2.1.1, hB]; omega
  | ⟨1, _⟩ => show win0_1.index t (1 : Fin 2) * 256 + 1 * q.val = p.val; rw [(index_facts t).2.1.2, hp]; omega

/-- The weight block's window is the whole block at every point. -/
theorem blk2_read (A : Buf (Elt Ideal) ((cfg0.win 2).arr.view.loc (c.tc : Thread nD τ))) (t : Fin cfg0.N)
    (k : Fin 8) (n : Fin 512) :
    ((cfg0.win 2).blk t).view.read (Elt Ideal) A (ix2 k n) = A (ix2 k n) := by
  show A (((cfg0.win 2).blk t).view.emb (ix2 k n)) = A (ix2 k n)
  refine congrArg A (funext fun a => Fin.ext ?_)
  match a with
  | ⟨0, _⟩ => show win0_2.index t (0 : Fin 2) * 8 + 1 * k.val = k.val; rw [(index_facts t).2.2.1.1]; omega
  | ⟨1, _⟩ => show win0_2.index t (1 : Fin 2) * 512 + 1 * n.val = n.val; rw [(index_facts t).2.2.1.2]; omega

/-- The output's block at `t`, read at `(b, n)`, is the array at row `8·(t/8) + b`, centre `n`. -/
theorem blk3_read (A : Buf (Elt Ideal) ((cfg0.win 3).arr.view.loc (c.tc : Thread nD τ))) (t : Fin cfg0.N)
    (b : Fin 8) (n : Fin 512) (B : Fin 64) (hB : B.val = 8 * (t.val / 8) + b.val) :
    ((cfg0.win 3).blk t).view.read (Elt Ideal) A (ix2 b n) = A (ix2 B n) := by
  show A (((cfg0.win 3).blk t).view.emb (ix2 b n)) = A (ix2 B n)
  refine congrArg A (funext fun a => Fin.ext ?_)
  match a with
  | ⟨0, _⟩ => show win0_3.index t (0 : Fin 2) * 8 + 1 * b.val = B.val; rw [(index_facts t).2.2.2.1, hB]; omega
  | ⟨1, _⟩ => show win0_3.index t (1 : Fin 2) * 512 + 1 * n.val = n.val; rw [(index_facts t).2.2.2.2]; omega

end Cert.KernelIdeal.Track

end
-- ==== Proof.IPieces.lean ====
/-
  What each case of the body leaves, as the body's own arithmetic.

  The accumulator and the output window's buffer are each stored through the whole 8×512 rectangle, so what a run
  leaves in them is the LAST value stored, and every load of a whole staging memref reads the block it holds. Hence:
  a first chunk leaves in the accumulator the chunk's sum added to the cleared value; a later chunk leaves the chunk's
  sum added to what the point before left; and the last chunk stores that same finished value into the output buffer.
-/
import proofs.«105125_j77747497992595_2_alg».proof.Proof.IFrame
import Idealize.ShloMosaic.Lib.Pipeline.Value

set_option maxRecDepth 16384

noncomputable section

namespace Cert.KernelIdeal.Track

open Idealize.ShloMosaic Idealize.ShloMosaic.TcCoe Idealize.ShloMosaic.Tactic
open Idealize.SL Idealize.SL.Sem
open Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first chunk leaves in the accumulator this chunk's sum added to the cleared value. -/
theorem accFirst_eq (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : condFirst i) (hc1 : ¬condLast i) (x0 : Vec F S8x256x3 .f32) (x1 : Vec F S8x256 .f32) (x2 : Vec F S8x512 .f32) :
    accFirst (F := F) c i arg2 harg2 arg3 harg3 arg4 harg4 arg5 harg5 arg6 harg6 hc0 hc1 x0 x1 x2 = k0_pay2 x0 x1 x2 (k0_pay1 (F := F)) := by
  unfold accFirst
  rw [View.read_writes_eq_canon _ _ _ (accCoverFirst c i arg2 harg2 arg3 harg3 arg4 harg4 arg5 harg5 arg6 harg6 hc0 hc1 x0 x1 x2)]
  unfold runFirst
  dsimp only
  sl_unfold_words
  rw [View.canon_cons_unit_zero (S := S8x512) hz2]
  simp only [View.readAt_eq_ld, harg2.read_unread, harg3.read_unread, harg4.read_unread,
    View.ld_unit_zero (S := S8x256x3) hz3, View.ld_unit_zero (S := S8x256) hz2, View.ld_unit_zero (S := S8x512) hz2,
    View.readCov_unit_zero (S := S8x512) _ hz2]

/-- A middle chunk leaves in the accumulator this chunk's sum added to what the point before left. -/
theorem accMid_eq (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : ¬condLast i) (x0 : Vec F S8x256x3 .f32) (x1 : Vec F S8x256 .f32) (x2 : Vec F S8x512 .f32) (xs : Vec F S8x512 .f32) :
    accMid (F := F) c i arg2 harg2 arg3 harg3 arg4 harg4 arg5 harg5 arg6 harg6 hc0 hc1 x0 x1 x2 xs = k0_pay2 x0 x1 x2 xs := by
  unfold accMid
  rw [View.read_writes_eq_canon _ _ _ (accCoverMid c i arg2 harg2 arg3 harg3 arg4 harg4 arg5 harg5 arg6 harg6 hc0 hc1 x0 x1 x2 xs)]
  unfold runMid
  dsimp only
  sl_unfold_words
  rw [View.canon_cons_unit_zero (S := S8x512) hz2]
  simp only [View.readAt_eq_ld, harg2.read_unread, harg3.read_unread, harg4.read_unread, harg6.read_unread,
    View.ld_unit_zero (S := S8x256x3) hz3, View.ld_unit_zero (S := S8x256) hz2, View.ld_unit_zero (S := S8x512) hz2]

/-- The last chunk leaves the same in the accumulator, -/
theorem accLast_eq (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) :
    accLast (F := F) c i arg2 harg2 arg3 harg3 arg4 harg4 arg5 harg5 arg6 harg6 hc0 hc1 x0 x1 x2 xs = k0_pay2 x0 x1 x2 xs := by
  unfold accLast
  rw [View.read_writes_eq_canon _ _ _ (accCoverLast c i arg2 harg2 arg3 harg3 arg4 harg4 arg5 harg5 arg6 harg6 hc0 hc1 x0 x1 x2 xs)]
  unfold runLast
  dsimp only
  sl_unfold_words
  rw [View.canon_cons_unit_zero (S := S8x512) hz2]
  simp only [View.readAt_eq_ld, harg2.read_unread, harg3.read_unread, harg4.read_unread, harg6.read_unread,
    View.ld_unit_zero (S := S8x256x3) hz3, View.ld_unit_zero (S := S8x256) hz2, View.ld_unit_zero (S := S8x512) hz2]

/-- and stores that finished accumulator into the output window's buffer. -/
theorem outLast_eq (c : Dev nD) (i : grid0.Coords) (arg2 : Memref sig .tc .vmem S8x256x3 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬condFirst i) (hc1 : condLast i) (x0 : Vec F S8x256x3 .f32) (x1 : Vec F S8x256 .f32) (x2 : Vec F S8x512 .f32) (xs : Vec F S8x512 .f32) :
    outLast3 (F := F) c i arg2 harg2 arg3 harg3 arg4 harg4 arg5 harg5 arg6 harg6 hc0 hc1 x0 x1 x2 xs = k0_pay2 x0 x1 x2 xs := by
  unfold outLast3
  rw [View.read_writes_eq_canon _ _ _ (outCoverLast c i arg2 harg2 arg3 harg3 arg4 harg4 arg5 harg5 arg6 harg6 hc0 hc1 x0 x1 x2 xs)]
  unfold runLast
  dsimp only
  sl_unfold_words
  rw [View.canon_unit_zero (S := S8x512) hz2]
  simp only [View.readAt_eq_ld, harg2.read_unread, harg3.read_unread, harg4.read_unread, harg6.read_unread,
    View.ld_unit_zero (S := S8x256x3) hz3, View.ld_unit_zero (S := S8x256) hz2, View.ld_unit_zero (S := S8x512) hz2,
    View.readCov_unit_zero (S := S8x512) _ hz2]

end Cert.KernelIdeal.Track

end
-- ==== Proof.Spec.lean ====
/-
  The mathematics of the certificate, stated once and over no program.

  A point `ξ ∈ ℝ³` answers to a centre `n` with `exp (-dist)`, where `dist = Σ_d s²[n,d] · (c[n,d] - ξ_d)²`.
  Two spellings of that squared distance appear:

  * as ONE contraction over eight features: the point's features are `(ξ₀, ξ₁, ξ₂, ξ₀², ξ₁², ξ₂², 1, 0)` and the
    centre's weight row is `(-2·s²c₀, -2·s²c₁, -2·s²c₂, s²₀, s²₁, s²₂, Σ_d s²c², 0)` (`distK`);
  * as three terms: `(Σ_d s²c² - 2 · Σ_d ξ_d · (s²c)_d) + Σ_d ξ_d² · s²_d` (`distR`).

  The result at `(b, n)` is the sum over the 2048 points of batch `b` of the response times the point's mask.
  `GK` is that result in the first spelling, `GR` in the second. Moving the factor `-2` across the three-term sum is
  distributivity, which on the extended reals needs the entries to be real numbers.
-/
import Idealize.ShloMosaic.PureOps.Ideal
import Idealize.ShloMosaic.PureOps.Ideal.Laws
import Idealize.ShloMosaic.Lib.ValueIdx

noncomputable section

namespace Cert.RbfSpec

open Idealize.ShloMosaic Idealize.ShloMosaic.ValueIdx

/-- The points: 64 batches of 2048 points in ℝ³. -/
abbrev SX : Shape := ⟨3, ![64, 2048, 3]⟩
/-- The points' masks. -/
abbrev SN : Shape := ⟨2, ![64, 2048]⟩
/-- The 512 centres (and their sharpnesses), in ℝ³. -/
abbrev SC : Shape := ⟨2, ![512, 3]⟩
/-- The result: one number per batch and centre. -/
abbrev SO : Shape := ⟨2, ![64, 512]⟩

/-- The literal `-2` of the weight rows and the literal `2` of the three-term spelling, as their words. -/
abbrev negTwo : EReal := Ideal.ofBits .f32 0xC0000000#32
abbrev two : EReal := Ideal.ofBits .f32 0x40000000#32

/-- The squared sharpness of centre `n` along axis `d`. -/
def s2 (s : SC.Idx → EReal) (n : Fin 512) (d : Fin 3) : EReal := s (ix2 n d) * s (ix2 n d)

/-- The squared sharpness times the centre's coordinate. -/
def s2c (c s : SC.Idx → EReal) (n : Fin 512) (d : Fin 3) : EReal := s2 s n d * c (ix2 n d)

/-- `Σ_d s²[n,d] · c[n,d]²`, grouped as the programs compute it: `(s² · c) · c`. -/
def cc (c s : SC.Idx → EReal) (n : Fin 512) : EReal := ∑ d : Fin 3, s2c c s n d * c (ix2 n d)

/-- The eight features of a point. -/
def feat (ξ : Fin 3 → EReal) : Fin 8 → EReal
  | ⟨0, _⟩ => ξ 0
  | ⟨1, _⟩ => ξ 1
  | ⟨2, _⟩ => ξ 2
  | ⟨3, _⟩ => ξ 0 * ξ 0
  | ⟨4, _⟩ => ξ 1 * ξ 1
  | ⟨5, _⟩ => ξ 2 * ξ 2
  | ⟨6, _⟩ => 1
  | ⟨_ + 7, _⟩ => 0

/-- The weight row of centre `n`, feature by feature. -/
def wrow (c s : SC.Idx → EReal) (n : Fin 512) : Fin 8 → EReal
  | ⟨0, _⟩ => negTwo * s2c c s n 0
  | ⟨1, _⟩ => negTwo * s2c c s n 1
  | ⟨2, _⟩ => negTwo * s2c c s n 2
  | ⟨3, _⟩ => s2 s n 0
  | ⟨4, _⟩ => s2 s n 1
  | ⟨5, _⟩ => s2 s n 2
  | ⟨6, _⟩ => cc c s n
  | ⟨_ + 7, _⟩ => 0

/-- A point's response to a weight row: `exp` of minus the contraction of its features with the row. -/
def resp (ξ : Fin 3 → EReal) (w : Fin 8 → EReal) : EReal := Ideal.exp (-(∑ k : Fin 8, feat ξ k * w k))

/-- The squared distance in three terms. -/
def distR (ξ : Fin 3 → EReal) (c s : SC.Idx → EReal) (n : Fin 512) : EReal :=
  (cc c s n - two * ∑ d : Fin 3, ξ d * s2c c s n d) + ∑ d : Fin 3, (ξ d * ξ d) * s2 s n d

/-- Point `p` of batch `b`. -/
def pt (x : SX.Idx → EReal) (b : Fin 64) (p : Fin 2048) : Fin 3 → EReal := fun d => x (ix3 b p d)

/-- The result in the contraction spelling. -/
def GK (x : SX.Idx → EReal) (nd : SN.Idx → EReal) (c s : SC.Idx → EReal) : SO.Idx → EReal :=
  fun j => ∑ p : Fin 2048, resp (pt x (j 0) p) (wrow c s (j 1)) * nd (ix2 (j 0) p)

/-- The result in the three-term spelling. -/
def GR (x : SX.Idx → EReal) (nd : SN.Idx → EReal) (c s : SC.Idx → EReal) : SO.Idx → EReal :=
  fun j => ∑ p : Fin 2048, Ideal.exp (-(distR (pt x (j 0) p) c s (j 1))) * nd (ix2 (j 0) p)

/-- Every entry of an array is a real number. -/
def AllReal {S : Shape} (a : S.Idx → EReal) : Prop := ∀ i, ∃ r : ℝ, a i = (r : EReal)

end Cert.RbfSpec

end
-- ==== Proof.LibGroupOps.lean ====
/-
  Three-dimensional vector operations read at one index, on the extended reals.

  A body that normalises groups of rows views an [a·b, c] block as [a, b, c] — a groups of b rows of c entries —, sums each
  row, then each group, and spreads a per-group number back over the group.  Each lemma below reads one such operation at
  an index whose coordinates are explicit: splitting the first axis in two and merging it back only re-number rows (row
  b·i + j is row j of group i); a sum along the last axis at (i, j) is the sum of that row; a sum along the middle axis
  at (i, u) is the sum over the rows of group i; a trailing unit axis added by a cast changes nothing; an [a, 1, 1] column
  spread over [a, b, c] reads, everywhere in group i, the column's entry i.
-/
import Idealize.ShloMosaic.PureOps.Ideal.Laws
import Idealize.ShloMosaic.Lib.ValueIdx
import Idealize.ShloMosaic.Lib.Pipeline.Value

noncomputable section

namespace Cert.GroupOps

open Idealize.ShloMosaic Idealize.ShloMosaic.ValueIdx

/-! ## Re-numbering rows -/

section Layout

variable {α : Type} {m a b c : Nat}

/-- An [m, c] array viewed as [a, b, c] reads, at (i, j, k), row b·i + j at k. -/
theorem split_apply (x : (⟨2, ![m, c]⟩ : Shape).Idx → α) (h : (⟨2, ![m, c]⟩ : Shape).ShapeCasts ⟨3, ![a, b, c]⟩)
    (i : Fin a) (j : Fin b) (k : Fin c) (r : Fin m) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- An [a, b, c] array viewed as [m, c] reads, at (r, k) with r = b·i + j, the entry (i, j, k). -/
theorem merge_apply (x : (⟨3, ![a, b, c]⟩ : Shape).Idx → α) (h : (⟨3, ![a, b, c]⟩ : Shape).ShapeCasts ⟨2, ![m, c]⟩)
    (i : Fin a) (j : Fin b) (k : Fin c) (r : Fin m) (hr : r.val = i.val * b + j.val) :
    shapeCast ⟨2, ![m, c]⟩ x h (ix2 r k) = x (ix3 i j k) :=
  shapeCast_apply x h _ _ (by
    rw [Shape.rowMajor_val_two, Shape.rowMajor_val_three]
    show (i.val * b + j.val) * c + k.val = r.val * c + k.val
    rw [hr])

/-- An [a, b] array with a trailing unit axis added reads, at (i, j, u), the entry (i, j). -/
theorem addLast_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An [a, 1, 1] column spread over [a, b, c] reads, at (i, j, k), the column's entry i. -/
theorem spread_apply (x : (⟨3, ![a, 1, 1]⟩ : Shape).Idx → α) (h : (⟨3, ![a, 1, 1]⟩ : Shape).Broadcasts ⟨3, ![a, b, c]⟩)
    (i : Fin a) (j : Fin b) (k : Fin c) :
    broadcastTo ⟨3, ![a, b, c]⟩ x h (ix3 i j k) = x (ix3 i (0 : Fin 1) (0 : Fin 1)) :=
  broadcastTo_apply x h _ _ (fun ax => by
    match ax with
    | ⟨0, _⟩ =>
      show i.val = if a = 1 then 0 else i.val
      split
      · next h1 => have := i.isLt; omega
      · rfl
    | ⟨1, _⟩ => show 0 = if (1 : Nat) = 1 then 0 else j.val; rw [if_pos rfl]
    | ⟨2, _⟩ => show 0 = if (1 : Nat) = 1 then 0 else k.val; rw [if_pos rfl])

end Layout

/-! ## Sums along the last and the middle axis -/

section Sums

variable {a b c : Nat} {φ : FTy}

/-- The index over (i, j) with last coordinate k. -/
theorem lift_last (h : (⟨3, ![a, b, c]⟩ : Shape).Reduces [2] ⟨2, ![a, b]⟩) (i : Fin a) (j : Fin b) (k : Fin c) :
    h.lift (ix2 i j) k = ix3 i j k :=
  funext fun x => Fin.ext (by
    show h.liftVal (ix2 i j) k.val x = (ix3 i j k x).val
    unfold Shape.Reduces.liftVal
    match x with
    | ⟨0, _⟩ => rfl
    | ⟨1, _⟩ => rfl
    | ⟨2, _⟩ => rfl)

/-- A sum along the last axis, at (i, j): the sum of that row. -/
theorem lastSum_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- The index over (i, u) with middle coordinate k. -/
theorem lift_mid (h : (⟨3, ![a, b, c]⟩ : Shape).Reduces [1] ⟨2, ![a, c]⟩) (i : Fin a) (u : Fin c) (k : Fin b) :
    h.lift (ix2 i u) k = ix3 i k u :=
  funext fun x => Fin.ext (by
    show h.liftVal (ix2 i u) k.val x = (ix3 i k u x).val
    unfold Shape.Reduces.liftVal
    match x with
    | ⟨0, _⟩ => rfl
    | ⟨1, _⟩ => rfl
    | ⟨2, _⟩ => rfl)

/-- A sum along the middle axis, at (i, u): the sum over the middle coordinate. -/
theorem midSum_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (u : Fin c) :
    multiReduction .add [1] ⟨2, ![a, c]⟩ src acc h hφ hacc (ix2 i u) = ∑ k : Fin b, src (ix3 i k u) := by
  rw [Ideal.multiReduction_add_single]
  exact Finset.sum_congr rfl fun k _ => congrArg src (lift_mid h i u k)

end Sums

end Cert.GroupOps

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«105125_j77747497992595_2_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.Payload.lean ====
/-
  The kernel body's two stored values, read at one index on the extended reals.

  The first is the zero block.  The second adds to the running block, at (b, n), the sum over the 256 points q of the
  block of exp (-dist) times the point's mask, where dist is ONE contraction over eight features: the 8x256x3 block of
  points is re-numbered as 2048 rows (row 256·b + q is point (b, q)); to each row its squares, a one and a zero are
  appended, giving the eight features (ξ₀, ξ₁, ξ₂, ξ₀², ξ₁², ξ₂², 1, 0); the product of that 2048x8 array with the 8x512
  weight block, at (256·b + q, n), is the sum over the features k of feature k times weight (k, n).  The lemmas below read
  each operation that moves entries (the re-numberings, the appended columns, the product, the mask spread along the
  last axis, the sum along the middle axis) at explicit coordinates, and the last theorem composes them.
-/
import proofs.«105125_j77747497992595_2_alg».proof.Proof.Spec
import proofs.«105125_j77747497992595_2_alg».proof.Proof.Gen.KernelIdeal.Skeleton
import proofs.«105125_j77747497992595_2_alg».proof.Proof.LibGroupOps
import proofs.«105125_j77747497992595_2_alg».proof.Proof.LibMatmulRows

noncomputable section

namespace Cert.KernelIdeal.Pay

open Idealize.ShloMosaic Idealize.ShloMosaic.ValueIdx Cert.KernelIdeal

/-! ## The word of the literal one -/

/-- The word 0x3F800000 encodes the real number one. -/
theorem one_word : Ideal.ofBits .f32 0x3F800000#32 = 1 := by
  simp [Ideal.ofBits, Ideal.ieee]
  rw [← EReal.coe_mul]
  norm_num

/-! ## Four pieces appended along the second axis: three columns, three columns, one column, one column -/

section Append

variable {α : Type}

/-- Columns 0, 1, 2 read the first piece. -/
theorem cat_first (x y : S2048x3.Idx → α) (z w : S2048x1.Idx → α)
    (h : Shape.Concatenates [S2048x3, S2048x3, S2048x1, S2048x1] S2048x8 1) (r : Fin 2048) (k : Fin 8) (d : Fin 3)
    (hk : k.val = d.val) :
    concatenate S2048x8 1 [⟨S2048x3, x⟩, ⟨S2048x3, y⟩, ⟨S2048x1, z⟩, ⟨S2048x1, w⟩] h (ix2 r k) = x (ix2 r d) :=
  concatenate_apply_piece (t := S2048x8) 1 [⟨S2048x3, x⟩, ⟨S2048x3, y⟩, ⟨S2048x1, z⟩, ⟨S2048x1, w⟩] h (ix2 r k) 0 (by simp)
    S2048x3 x rfl rfl 0 rfl (ix2 r d)
    (fun b hb => by
      match b with
      | ⟨0, _⟩ => rfl
      | ⟨1, _⟩ => exact absurd rfl hb)
    (by show 0 + d.val = k.val; omega)

/-- Columns 3, 4, 5 read the second piece. -/
theorem cat_second (x y : S2048x3.Idx → α) (z w : S2048x1.Idx → α)
    (h : Shape.Concatenates [S2048x3, S2048x3, S2048x1, S2048x1] S2048x8 1) (r : Fin 2048) (k : Fin 8) (d : Fin 3)
    (hk : k.val = 3 + d.val) :
    concatenate S2048x8 1 [⟨S2048x3, x⟩, ⟨S2048x3, y⟩, ⟨S2048x1, z⟩, ⟨S2048x1, w⟩] h (ix2 r k) = y (ix2 r d) :=
  concatenate_apply_piece (t := S2048x8) 1 [⟨S2048x3, x⟩, ⟨S2048x3, y⟩, ⟨S2048x1, z⟩, ⟨S2048x1, w⟩] h (ix2 r k) 1 (by simp)
    S2048x3 y rfl rfl 3 (by simp) (ix2 r d)
    (fun b hb => by
      match b with
      | ⟨0, _⟩ => rfl
      | ⟨1, _⟩ => exact absurd rfl hb)
    (by show 3 + d.val = k.val; omega)

/-- Column 6 reads the third piece. -/
theorem cat_third (x y : S2048x3.Idx → α) (z w : S2048x1.Idx → α)
    (h : Shape.Concatenates [S2048x3, S2048x3, S2048x1, S2048x1] S2048x8 1) (r : Fin 2048) (k : Fin 8)
    (hk : k.val = 6) :
    concatenate S2048x8 1 [⟨S2048x3, x⟩, ⟨S2048x3, y⟩, ⟨S2048x1, z⟩, ⟨S2048x1, w⟩] h (ix2 r k) = z (ix2 r (0 : Fin 1)) :=
  concatenate_apply_piece (t := S2048x8) 1 [⟨S2048x3, x⟩, ⟨S2048x3, y⟩, ⟨S2048x1, z⟩, ⟨S2048x1, w⟩] h (ix2 r k) 2 (by simp)
    S2048x1 z rfl rfl 6 (by simp) (ix2 r (0 : Fin 1))
    (fun b hb => by
      match b with
      | ⟨0, _⟩ => rfl
      | ⟨1, _⟩ => exact absurd rfl hb)
    (by show 6 + 0 = k.val; omega)

/-- Column 7 reads the fourth piece. -/
theorem cat_fourth (x y : S2048x3.Idx → α) (z w : S2048x1.Idx → α)
    (h : Shape.Concatenates [S2048x3, S2048x3, S2048x1, S2048x1] S2048x8 1) (r : Fin 2048) (k : Fin 8)
    (hk : k.val = 7) :
    concatenate S2048x8 1 [⟨S2048x3, x⟩, ⟨S2048x3, y⟩, ⟨S2048x1, z⟩, ⟨S2048x1, w⟩] h (ix2 r k) = w (ix2 r (0 : Fin 1)) :=
  concatenate_apply_piece (t := S2048x8) 1 [⟨S2048x3, x⟩, ⟨S2048x3, y⟩, ⟨S2048x1, z⟩, ⟨S2048x1, w⟩] h (ix2 r k) 3 (by simp)
    S2048x1 w rfl rfl 7 (by simp) (ix2 r (0 : Fin 1))
    (fun b hb => by
      match b with
      | ⟨0, _⟩ => rfl
      | ⟨1, _⟩ => exact absurd rfl hb)
    (by show 7 + 0 = k.val; omega)

end Append

/-! ## The eight features of a row -/

/-- A row of the points block with its squares, a one and a zero appended reads, at column k, feature k of the point. -/
theorem featRow_apply (x : FVec Ideal S2048x3 .f32)
    (h : Shape.Concatenates [S2048x3, S2048x3, S2048x1, S2048x1] S2048x8 1) (r : Fin 2048) (ξ : Fin 3 → EReal)
    (hx : ∀ d : Fin 3, x (ix2 r d) = ξ d) (k : Fin 8) :
    concatenate S2048x8 1 [⟨S2048x3, x⟩, ⟨S2048x3, mulf x x⟩,
        ⟨S2048x1, broadcast S2048x1 (Scalar.ofBits (F := Ideal) .f32 0x3F800000#32)⟩,
        ⟨S2048x1, broadcast S2048x1 (Scalar.ofBits (F := Ideal) .f32 0x00000000#32)⟩] h (ix2 r k)
      = Cert.RbfSpec.feat ξ k := by
  match k with
  | ⟨0, _⟩ => exact (cat_first _ _ _ _ h r _ (0 : Fin 3) rfl).trans (hx 0)
  | ⟨1, _⟩ => exact (cat_first _ _ _ _ h r _ (1 : Fin 3) rfl).trans (hx 1)
  | ⟨2, _⟩ => exact (cat_first _ _ _ _ h r _ (2 : Fin 3) rfl).trans (hx 2)
  | ⟨3, _⟩ => exact (cat_second _ _ _ _ h r _ (0 : Fin 3) rfl).trans (congrArg₂ (· * ·) (hx 0) (hx 0))
  | ⟨4, _⟩ => exact (cat_second _ _ _ _ h r _ (1 : Fin 3) rfl).trans (congrArg₂ (· * ·) (hx 1) (hx 1))
  | ⟨5, _⟩ => exact (cat_second _ _ _ _ h r _ (2 : Fin 3) rfl).trans (congrArg₂ (· * ·) (hx 2) (hx 2))
  | ⟨6, _⟩ => exact (cat_third _ _ _ _ h r _ rfl).trans one_word
  | ⟨7, _⟩ => exact (cat_fourth _ _ _ _ h r _ rfl).trans Ideal.ofBits_zero_f32

/-! ## The squared distance as one contraction -/

/-- The product of the feature rows with the weight block, viewed per batch: at (b, q, n) the contraction of the
    features of point (b, q) with column n of the weights. -/
theorem dist_apply (v3 : FVec Ideal S8x256x3 .f32) (v10 : FVec Ideal S8x512 .f32)
    (h5 : S8x256x3.ShapeCasts S2048x3)
    (h9 : Shape.Concatenates [S2048x3, S2048x3, S2048x1, S2048x1] S2048x8 1)
    (h11 : S8x512.ShapeCasts S8x512) (h13 : S2048x512.ShapeCasts S8x256x512)
    (b : Fin 8) (q : Fin 256) (n : Fin 512) :
    shapeCast S8x256x512
        (matmul dot_S2048x8_S8x512_S2048x512_1_0_0_1_n_n none
          (concatenate S2048x8 1 [⟨S2048x3, shapeCast S2048x3 v3 h5⟩,
            ⟨S2048x3, mulf (shapeCast S2048x3 v3 h5) (shapeCast S2048x3 v3 h5)⟩,
            ⟨S2048x1, broadcast S2048x1 (Scalar.ofBits (F := Ideal) .f32 0x3F800000#32)⟩,
            ⟨S2048x1, broadcast S2048x1 (Scalar.ofBits (F := Ideal) .f32 0x00000000#32)⟩] h9)
          (shapeCast S8x512 v10 h11) (constant (F := Ideal) S2048x512 .f32 0x00000000#32)) h13 (ix3 b q n)
      = ∑ k : Fin 8, Cert.RbfSpec.feat (fun d => v3 (ix3 b q d)) k * v10 (ix2 k n) := by
  have hr : b.val * 256 + q.val < 2048 := by have := b.isLt; have := q.isLt; omega
  refine (Cert.GroupOps.split_apply _ h13 b q n ⟨b.val * 256 + q.val, hr⟩ rfl).trans ?_
  refine (Cert.MatmulRows.matmul_zero_ix2 dot_S2048x8_S8x512_S2048x512_1_0_0_1_n_n rfl rfl rfl rfl rfl rfl none _ _
    ⟨b.val * 256 + q.val, hr⟩ n).trans ?_
  refine Finset.sum_congr rfl fun k _ => ?_
  exact congrArg₂ (· * ·)
    (featRow_apply _ h9 ⟨b.val * 256 + q.val, hr⟩ (fun d => v3 (ix3 b q d))
      (fun d => Cert.GroupOps.merge_apply v3 h5 b q d ⟨b.val * 256 + q.val, hr⟩ rfl) k)
    (congrFun (shapeCast_self v10 h11) (ix2 k n))

/-! ## The response and the mask -/

/-- The exponential of zero minus y is the exponential of -y. -/
theorem expNeg_apply (y : FVec Ideal S8x256x512 .f32) (i : S8x256x512.Idx) :
    exp (subf (broadcast S8x256x512 (Scalar.ofBits (F := Ideal) .f32 0x00000000#32)) y) i = Ideal.exp (-(y i)) := by
  show Ideal.exp (Ideal.ofBits .f32 0x00000000#32 - y i) = _
  rw [Ideal.ofBits_zero_f32, zero_sub]

/-- An [8, 256, 1] array spread along its last axis reads, at (b, q, n), its entry (b, q, 0). -/
theorem lastSpread_apply {α : Type} (x : S8x256x1.Idx → α) (h : S8x256x1.Broadcasts S8x256x512)
    (b : Fin 8) (q : Fin 256) (n : Fin 512) :
    broadcastTo S8x256x512 x h (ix3 b q n) = x (ix3 b q (0 : Fin 1)) :=
  broadcastTo_apply x h _ _ (fun ax => by
    match ax with
    | ⟨0, _⟩ => show b.val = if (8 : Nat) = 1 then 0 else b.val; rw [if_neg (by decide)]
    | ⟨1, _⟩ => show q.val = if (256 : Nat) = 1 then 0 else q.val; rw [if_neg (by decide)]
    | ⟨2, _⟩ => show 0 = if (1 : Nat) = 1 then 0 else n.val; rw [if_pos rfl])

/-- The mask block given a trailing unit axis and spread along it reads, at (b, q, n), the mask of point (b, q). -/
theorem mask_apply (v4 : FVec Ideal S8x256 .f32) (h17 : S8x256.ShapeCasts S8x256x1)
    (h18 : S8x256x1.Broadcasts S8x256x512) (b : Fin 8) (q : Fin 256) (n : Fin 512) :
    broadcastTo S8x256x512 (shapeCast S8x256x1 v4 h17) h18 (ix3 b q n) = v4 (ix2 b q) :=
  (lastSpread_apply _ h18 b q n).trans (Cert.GroupOps.addLast_apply v4 h17 b q (0 : Fin 1))

/-! ## The two stored values -/

/-- The first stored value is the zero block. -/
theorem pay1_apply (j : S8x512.Idx) : Gen.k0_pay1 (F := Ideal) j = 0 := by
  unfold Gen.k0_pay1
  refine (congrFun (shapeCast_self _ _) j).trans ?_
  exact Ideal.ofBits_zero_f32

/-- The second stored value at (b, n): the running value plus the sum over the block's 256 points of the point's
    response to column n of the weights times the point's mask. -/
theorem pay2_apply (v3 : Vec Ideal S8x256x3 .f32) (v4 : Vec Ideal S8x256 .f32) (v10 v21 : Vec Ideal S8x512 .f32)
    (b : Fin 8) (n : Fin 512) :
    Gen.k0_pay2 v3 v4 v10 v21 (ix2 b n)
      = v21 (ix2 b n) + ∑ q : Fin 256, Cert.RbfSpec.resp (fun d => v3 (ix3 b q d)) (fun k => v10 (ix2 k n)) * v4 (ix2 b q) := by
  unfold Gen.k0_pay2
  refine (congrFun (shapeCast_self _ _) (ix2 b n)).trans ?_
  refine (addf_apply _ _ _).trans ?_
  refine congrArg (v21 (ix2 b n) + ·) ?_
  refine (Cert.GroupOps.midSum_apply _ _ _ _ _ b n).trans ?_
  refine Finset.sum_congr rfl fun q _ => ?_
  refine (mulf_apply _ _ _).trans ?_
  refine congrArg₂ (· * ·) ?_ (mask_apply v4 _ _ b q n)
  refine (expNeg_apply _ _).trans ?_
  exact congrArg (fun t => Ideal.exp (-t)) (dist_apply v3 v10 _ _ _ _ b q n)

end Cert.KernelIdeal.Pay

end
-- ==== Proof.Weights.lean ====
/-
  The 8x512 weight block the host builds before the kernel runs, read at one entry.

  From the centres c and the sharpnesses s (both 512x3) the host forms s² = s·s and s²c = s²·c, and stacks eight rows
  of 512 entries: for each axis d the row -2·(s²c)[·,d], for each axis d the row s²[·,d], the row Σ_d ((s²c)·c)[·,d]
  (a sum along the second axis from the initial value zero), and a row of zeros.  Entry (k, n) of the block is
  therefore feature k's weight for centre n.  The lemmas read each layout operation (a column cut out and flattened, a
  vector laid as a row, rows stacked, a literal spread, the row sum) at explicit coordinates; the block itself is what
  the buffer holds after the host's operations, each operation's result substituted into the next.
-/
import proofs.«105125_j77747497992595_2_alg».proof.Proof.Spec
import proofs.«105125_j77747497992595_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Wts

open Idealize.ShloMosaic Idealize.ShloMosaic.TcCoe Idealize.ShloMosaic.ValueIdx Idealize.SL.Sem Cert.KernelIdeal

/-! ## The host's layout operations read at an index -/

section Read

variable {α : Type}

/-- Rows of 512 entries stacked along the first axis read, at (k, n), the k-th piece at (0, n). -/
theorem cat_row (xs : List ((s : Shape) × (s.Idx → α))) (h : Shape.Concatenates (xs.map (·.1)) S8x512 0)
    (k : Fin 8) (n : Fin 512) (hk : k.val < xs.length) (x : S1x512.Idx → α) (hx : xs[k.val] = ⟨S1x512, x⟩)
    (hpre : (((xs.take k.val).map (·.1)).map fun s =>
      if h : s.rank = S8x512.rank then s.size ((0 : Fin S8x512.rank).cast h.symm) else 0).sum = k.val) :
    concatenate S8x512 0 xs h (ix2 k n) = x (ix2 (0 : Fin 1) n) :=
  concatenate_apply_piece (t := S8x512) 0 xs h (ix2 k n) k.val hk S1x512 x hx rfl k.val hpre (ix2 (0 : Fin 1) n)
    (fun b hb => by
      match b with
      | ⟨0, _⟩ => exact absurd rfl hb
      | ⟨1, _⟩ => rfl)
    (Nat.add_zero _)

/-- A length-512 vector laid as the one row of a [1, 512] array reads, at (0, n), its entry n. -/
theorem asRow_apply (x : S512.Idx → α) (h : S512.BroadcastsInDim S1x512 (![1] : Fin 1 → Fin S1x512.rank)) (n : Fin 512) :
    broadcastInDim S1x512 ![1] h x (ix2 (0 : Fin 1) n) = x (ix1 n) :=
  broadcastInDim_apply (![1] : Fin 1 → Fin S1x512.rank) h x (ix2 (0 : Fin 1) n) (ix1 n) (fun a => by
    match a with
    | ⟨0, _⟩ => show n.val = if (512 : Nat) = 1 then 0 else n.val; rw [if_neg (by decide)])

/-- Column e of a [512, 3] array, cut out as a [512, 1] array and flattened, reads at n the entry (n, e). -/
theorem col_apply (x : S512x3.Idx → α) (e : Nat) (hs : S512x3.Slices ![0, e] S512x1) (hc : S512x1.ShapeCasts S512)
    (n : Fin 512) (d : Fin 3) (hd : d.val = e) :
    shapeCast S512 (extractStridedSlice S512x1 ![0, e] x hs) hc (ix1 n) = x (ix2 n d) :=
  (shapeCast_apply _ hc (ix1 n) (ix2 n (0 : Fin 1)) (by
      rw [Shape.rowMajor_val_one, Shape.rowMajor_val_two]
      show n.val * 1 + 0 = n.val
      omega)).trans
    (extractStridedSlice_apply ![0, e] x hs (ix2 n (0 : Fin 1)) (ix2 n d) (fun a => by
      match a with
      | ⟨0, _⟩ => show n.val = 0 + n.val; omega
      | ⟨1, _⟩ => show d.val = e + 0; omega))

end Read

/-- A literal spread over a length-512 vector reads the literal's value everywhere. -/
theorem lit_apply (w : BitVec 32) (h : S_.BroadcastsInDim S512 (![] : Fin 0 → Fin S512.rank)) (n : Fin 512) :
    broadcastInDim S512 ![] h (constant (F := Ideal) S_ .f32 w) (ix1 n) = Ideal.ofBits .f32 w :=
  broadcastInDim_scalar_apply h _ (ix1 n)

/-- The host's sum of a [512, 3] array along its second axis, from an initial value: at n the initial value plus
    the sum of row n. -/
theorem rowSum_apply (x : FVec Ideal S512x3 .f32) (init : FVec Ideal S_ .f32) (h' : S512x3.ReducesTo [1] S512)
    (hu : 0 < S_.numel) (n : Fin 512) :
    Host.reduceAdd x init h' hu (ix1 n) = init (Shape.Idx.first hu) + ∑ d : Fin 3, x (ix2 n d) := by
  have h : S512x3.Reduces [1] S512 := by decide
  refine (hostReduceAdd_apply x init h' hu (ix1 n)).trans ?_
  refine (Ideal.hostReduceAdd_single h' h x _ (ix1 n)).trans ?_
  refine congrArg (init (Shape.Idx.first hu) + ·) (Finset.sum_congr rfl fun d _ => congrArg x ?_)
  funext a
  apply Fin.ext
  show h.liftVal (ix1 n) d.val a = (ix2 n d a).val
  unfold Shape.Reduces.liftVal
  match a with
  | ⟨0, _⟩ => rfl
  | ⟨1, _⟩ => rfl

/-! ## The eight rows -/

section Rows

variable (a2 a3 : FVec Ideal S512x3 .f32)

/-- The row -2·(s²c)[·, e]. -/
def rowNeg (e : Nat) (hs : S512x3.Slices ![0, e] S512x1) : FVec Ideal S1x512 .f32 :=
  broadcastInDim S1x512 ![1] Gen.bcast_S512_S1x512_1
    (mulf (broadcastInDim S512 ![] Gen.bcast_S_S512 (constant (F := Ideal) S_ .f32 0xC0000000#32))
      (shapeCast S512 (extractStridedSlice S512x1 ![0, e] (mulf (mulf a3 a3) a2) hs) Gen.shapeCasts_S512x1_S512))

/-- The row s²[·, e]. -/
def rowSq (e : Nat) (hs : S512x3.Slices ![0, e] S512x1) : FVec Ideal S1x512 .f32 :=
  broadcastInDim S1x512 ![1] Gen.bcast_S512_S1x512_1
    (shapeCast S512 (extractStridedSlice S512x1 ![0, e] (mulf a3 a3) hs) Gen.shapeCasts_S512x1_S512)

/-- The row Σ_d ((s²c)·c)[·, d]. -/
def rowCc : FVec Ideal S1x512 .f32 :=
  broadcastInDim S1x512 ![1] Gen.bcast_S512_S1x512_1
    (Host.reduceAdd (F := Ideal) (mulf (mulf (mulf a3 a3) a2) a2) (constant (F := Ideal) S_ .f32 0x00000000#32)
      Gen.reducesTo_S512x3_S512_d1 Gen.h_S_)

/-- The row of zeros. -/
def rowZero : FVec Ideal S1x512 .f32 :=
  broadcastInDim S1x512 ![1] Gen.bcast_S512_S1x512_1
    (broadcastInDim S512 ![] Gen.bcast_S_S512 (constant (F := Ideal) S_ .f32 0x00000000#32))

/-- The weight block as one term of the centres and the sharpnesses. -/
def wterm : FVec Ideal S8x512 .f32 :=
  concatenate S8x512 0
    [⟨S1x512, rowNeg a2 a3 0 Gen.slices_S512x3_S512x1_0_0⟩, ⟨S1x512, rowNeg a2 a3 1 Gen.slices_S512x3_S512x1_0_1⟩,
     ⟨S1x512, rowNeg a2 a3 2 Gen.slices_S512x3_S512x1_0_2⟩, ⟨S1x512, rowSq a3 0 Gen.slices_S512x3_S512x1_0_0⟩,
     ⟨S1x512, rowSq a3 1 Gen.slices_S512x3_S512x1_0_1⟩, ⟨S1x512, rowSq a3 2 Gen.slices_S512x3_S512x1_0_2⟩,
     ⟨S1x512, rowCc a2 a3⟩, ⟨S1x512, rowZero⟩]
    Gen.concatenates_S1x512_S1x512_S1x512_S1x512_S1x512_S1x512_S1x512_S1x512_S8x512_d0

/-- The row -2·(s²c)[·, e] at (0, n). -/
theorem rowNeg_apply (e : Nat) (hs : S512x3.Slices ![0, e] S512x1) (n : Fin 512) (d : Fin 3) (hd : d.val = e) :
    rowNeg a2 a3 e hs (ix2 (0 : Fin 1) n) = Cert.RbfSpec.negTwo * Cert.RbfSpec.s2c a2 a3 n d := by
  unfold rowNeg
  refine (asRow_apply _ _ n).trans ?_
  refine (mulf_apply _ _ _).trans ?_
  exact congrArg₂ (· * ·) (lit_apply _ _ n) (col_apply _ e hs _ n d hd)

/-- The row s²[·, e] at (0, n). -/
theorem rowSq_apply (e : Nat) (hs : S512x3.Slices ![0, e] S512x1) (n : Fin 512) (d : Fin 3) (hd : d.val = e) :
    rowSq a3 e hs (ix2 (0 : Fin 1) n) = Cert.RbfSpec.s2 a3 n d := by
  unfold rowSq
  refine (asRow_apply _ _ n).trans ?_
  exact col_apply _ e hs _ n d hd

/-- The row of sums at (0, n). -/
theorem rowCc_apply (n : Fin 512) : rowCc a2 a3 (ix2 (0 : Fin 1) n) = Cert.RbfSpec.cc a2 a3 n := by
  unfold rowCc
  refine (asRow_apply _ _ n).trans ?_
  refine (rowSum_apply _ _ _ _ n).trans ?_
  refine (congrArg (· + _) Ideal.ofBits_zero_f32).trans ?_
  exact zero_add _

/-- The row of zeros at (0, n). -/
theorem rowZero_apply (n : Fin 512) : rowZero (ix2 (0 : Fin 1) n) = 0 := by
  unfold rowZero
  refine (asRow_apply _ _ n).trans ?_
  exact (lit_apply _ _ n).trans Ideal.ofBits_zero_f32

/-- The block at (k, n): the weight of feature k for centre n. -/
theorem wterm_apply (k : Fin 8) (n : Fin 512) : wterm a2 a3 (ix2 k n) = Cert.RbfSpec.wrow a2 a3 n k := by
  unfold wterm
  match k with
  | ⟨0, _⟩ => exact (cat_row _ _ ⟨0, by omega⟩ n (by simp) _ rfl (by simp)).trans (rowNeg_apply a2 a3 0 _ n 0 rfl)
  | ⟨1, _⟩ => exact (cat_row _ _ ⟨1, by omega⟩ n (by simp) _ rfl (by simp)).trans (rowNeg_apply a2 a3 1 _ n 1 rfl)
  | ⟨2, _⟩ => exact (cat_row _ _ ⟨2, by omega⟩ n (by simp) _ rfl (by simp)).trans (rowNeg_apply a2 a3 2 _ n 2 rfl)
  | ⟨3, _⟩ => exact (cat_row _ _ ⟨3, by omega⟩ n (by simp) _ rfl (by simp)).trans (rowSq_apply a3 0 _ n 0 rfl)
  | ⟨4, _⟩ => exact (cat_row _ _ ⟨4, by omega⟩ n (by simp) _ rfl (by simp)).trans (rowSq_apply a3 1 _ n 1 rfl)
  | ⟨5, _⟩ => exact (cat_row _ _ ⟨5, by omega⟩ n (by simp) _ rfl (by simp)).trans (rowSq_apply a3 2 _ n 2 rfl)
  | ⟨6, _⟩ => exact (cat_row _ _ ⟨6, by omega⟩ n (by simp) _ rfl (by simp)).trans (rowCc_apply a2 a3 n)
  | ⟨7, _⟩ => exact (cat_row _ _ ⟨7, by omega⟩ n (by simp) _ rfl (by simp)).trans (rowZero_apply n)

end Rows

/-! ## The block is what the host's operations leave in their last result -/

/-- Eight rows stacked are equal when the rows are. -/
theorem cat8_congr {α : Type} {x0 x1 x2 x3 x4 x5 x6 x7 y0 y1 y2 y3 y4 y5 y6 y7 : S1x512.Idx → α}
    (h : Shape.Concatenates [S1x512, S1x512, S1x512, S1x512, S1x512, S1x512, S1x512, S1x512] S8x512 0)
    (e0 : x0 = y0) (e1 : x1 = y1) (e2 : x2 = y2) (e3 : x3 = y3) (e4 : x4 = y4) (e5 : x5 = y5) (e6 : x6 = y6) (e7 : x7 = y7) :
    concatenate S8x512 0 [⟨S1x512, x0⟩, ⟨S1x512, x1⟩, ⟨S1x512, x2⟩, ⟨S1x512, x3⟩, ⟨S1x512, x4⟩, ⟨S1x512, x5⟩,
        ⟨S1x512, x6⟩, ⟨S1x512, x7⟩] h
      = concatenate S8x512 0 [⟨S1x512, y0⟩, ⟨S1x512, y1⟩, ⟨S1x512, y2⟩, ⟨S1x512, y3⟩, ⟨S1x512, y4⟩, ⟨S1x512, y5⟩,
        ⟨S1x512, y6⟩, ⟨S1x512, y7⟩] h := by
  subst e0 e1 e2 e3 e4 e5 e6 e7
  rfl

section Block

variable (m : (ℓ : Loc nD τ sig) → Buf (Elt Ideal) ℓ)

/-- After the host's operations the last result holds the weight block of the centres and sharpnesses as launched:
    the stacking's eight operands are read one by one, each operation's result substituted into the next. -/
theorem wblock_eq (c : Dev nD) :
    (StableHlo.after (Gen.hostOps0 (F := Ideal)) (fun b => m (c, b)) main_v32 : S8x512.Idx → EReal)
      = wterm (m ((c : Thread nD τ).loc main_arg2)) (m ((c : Thread nD τ).loc main_arg3)) := by
  dsimp only [Gen.hostOps0]
  simp only [StableHlo.after_cons, StableHlo.after_nil]
  rw [StableHlo.nary_result]
  dsimp only [Matrix.cons_val]
  refine cat8_congr _ ?_ ?_ ?_ ?_ ?_ ?_ ?_ ?_
  all_goals simp (disch := decide) only [StableHlo.nullary_result', StableHlo.unary_result', StableHlo.binary_result',
    StableHlo.reshape_result', StableHlo.nullary_result_ne', StableHlo.unary_result_ne', StableHlo.binary_result_ne',
    StableHlo.reshape_result_ne']
  all_goals rfl

/-- Entry (k, n) of the block the kernel's third window reads: the weight of feature k for centre n. -/
theorem wblock (c : Dev nD) (k : Fin 8) (n : Fin 512) :
    (StableHlo.after (Gen.hostOps0 (F := Ideal)) (fun b => m (c, b)) main_v32 : S8x512.Idx → EReal) (ix2 k n)
      = Cert.RbfSpec.wrow (m ((c : Thread nD τ).loc main_arg2)) (m ((c : Thread nD τ).loc main_arg3)) n k :=
  (congrFun (wblock_eq m c) (ix2 k n)).trans (wterm_apply _ _ k n)

end Block

end Cert.KernelIdeal.Wts

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.IValue.lean ====
/-
  The idealized kernel's result array, as one function of the argument arrays.

  At grid point `t = 8·i + p` the body adds to the accumulator the CHUNK ADDEND of `t`: at `(b, n)` the sum over the
  256 points `q` of the chunk of the response of point `(8i+b, 256p+q)` to centre `n` times the point's mask
  (the body's arithmetic read at an index, over the blocks the windows hold). The accumulator is reset to `0 +` the
  addend at the multiples of 8 and stepped by the addend elsewhere, so at `t ≡ 7 (mod 8)` it holds the sum of the eight
  addends of `8i … 8i+7`; that is what the last chunk stores into the output window and what the pipeline writes back
  into rows `8i … 8i+7` of the result. The eight sums of 256 points regroup into one sum over the 2048 points of the
  batch row, which is the contraction spelling `GK` of the result; the eight output blocks cover the 64 rows.
-/
import proofs.«105125_j77747497992595_2_alg».proof.Proof.IFrame
import proofs.«105125_j77747497992595_2_alg».proof.Proof.IBlocks
import proofs.«105125_j77747497992595_2_alg».proof.Proof.IPieces
import proofs.«105125_j77747497992595_2_alg».proof.Proof.Payload
import proofs.«105125_j77747497992595_2_alg».proof.Proof.Weights
import proofs.«105125_j77747497992595_2_alg».proof.Proof.Spec
import proofs.«105125_j77747497992595_2_alg».proof.Proof.LibTiledSum
import Idealize.ShloMosaic.Lib.Pipeline.Value

set_option maxRecDepth 16384

noncomputable section

namespace Cert.KernelIdeal.Track

open Idealize.ShloMosaic Idealize.ShloMosaic.TcCoe Idealize.ShloMosaic.ValueIdx
open Idealize.SL Idealize.SL.Sem
open Idealize.ShloMosaic.Pipeline (Dat Cfg Window)
open Cert.KernelIdeal.Gen

variable (m : (ℓ : Loc nD τ sig) → Buf (Elt Ideal) ℓ) (c : Dev nD)

/-! ## The blocks the body loads, as entries of the argument arrays -/

/-- The three input blocks at a point, at their literal vector types. -/
abbrev xb (t : Fin cfg0.N) : Vec Ideal S8x256x3 .f32 := iblk m c 0 t
abbrev nb (t : Fin cfg0.N) : Vec Ideal S8x256 .f32 := iblk m c 1 t
abbrev wb (t : Fin cfg0.N) : Vec Ideal S8x512 .f32 := iblk m c 2 t

theorem xb_apply (t : Fin cfg0.N) (b : Fin 8) (q : Fin 256) (d : Fin 3) (B : Fin 64) (p : Fin 2048)
    (hB : B.val = 8 * (t.val / 8) + b.val) (hp : p.val = 256 * (t.val % 8) + q.val) :
    xb m c t (ix3 b q d) = (m ((c : Thread nD τ).loc main_arg0)) (ix3 B p d) := by
  unfold xb iblk
  rw [blk0_read c _ t b q d B p hB hp]
  exact congrFun (V_main_arg0 m c) _

theorem nb_apply (t : Fin cfg0.N) (b : Fin 8) (q : Fin 256) (B : Fin 64) (p : Fin 2048)
    (hB : B.val = 8 * (t.val / 8) + b.val) (hp : p.val = 256 * (t.val % 8) + q.val) :
    nb m c t (ix2 b q) = (m ((c : Thread nD τ).loc main_arg1)) (ix2 B p) := by
  unfold nb iblk
  rw [blk1_read c _ t b q B p hB hp]
  exact congrFun (V_main_arg1 m c) _

/-- The weight block the host built, at `(k, n)`, is entry `k` of centre `n`'s weight row. -/
theorem wb_apply (t : Fin cfg0.N) (k : Fin 8) (n : Fin 512) :
    wb m c t (ix2 k n) = Cert.RbfSpec.wrow (m ((c : Thread nD τ).loc main_arg2)) (m ((c : Thread nD τ).loc main_arg3)) n k := by
  unfold wb iblk
  rw [blk2_read c _ t k n]
  exact Cert.KernelIdeal.Wts.wblock m c k n

/-! ## The chunk addend and the accumulator's recursion -/

/-- The addend of point `n` at `(b, k)` (zero past the grid, where nothing reads it). -/
def chunkAt (n : ℕ) (b : Fin 8) (k : Fin 512) : EReal :=
  if h : n < cfg0.N then
    ∑ q : Fin 256, Cert.RbfSpec.resp (fun d => xb m c ⟨n, h⟩ (ix3 b q d)) (fun k' => wb m c ⟨n, h⟩ (ix2 k' k)) * nb m c ⟨n, h⟩ (ix2 b q)
  else 0

def chunk (n : ℕ) : S8x512.Idx → EReal := fun j => chunkAt m c n (j 0) (j 1)

theorem outsAt_congr (u v : ℕ) (hu : u < cfg0.N) (hv : v < cfg0.N) (e : u = v) : outsAt m c u hu = outsAt m c v hv := by
  subst e; rfl

/-- At a first chunk the accumulator ends at `0 +` the addend. -/
theorem acc_reset (n : ℕ) (h : n < cfg0.N) (h0 : n % 8 = 0) :
    (outsAt m c n h).2 = fun j => (0 : EReal) + chunk m c n j := by
  refine (congrArg Prod.snd (outsAt_first m c ⟨n, h⟩ h0 (by show ¬ n % 8 = 7; omega))).trans ?_
  dsimp only
  rw [accFirst_eq]
  refine funext fun (j : S8x512.Idx) => ?_
  obtain ⟨b, k, rfl⟩ : ∃ (b : Fin 8) (k : Fin 512), j = ix2 b k := ⟨j 0, j 1, eq_ix2 j⟩
  refine (Cert.KernelIdeal.Pay.pay2_apply (xb m c ⟨n, h⟩) (nb m c ⟨n, h⟩) (wb m c ⟨n, h⟩) _ b k).trans ?_
  rw [Cert.KernelIdeal.Pay.pay1_apply]
  refine congrArg (fun z => (0 : EReal) + z) ?_
  show _ = chunkAt m c n b k
  unfold chunkAt; rw [dif_pos h]

/-- At a later chunk it ends at what the point before left plus the addend. -/
theorem acc_step (n : ℕ) (h : n + 1 < cfg0.N) (h0 : ¬(n + 1) % 8 = 0) :
    (outsAt m c (n + 1) h).2 = fun j => (outsAt m c n (Nat.lt_of_succ_lt h)).2 j + chunk m c (n + 1) j := by
  by_cases h7 : (n + 1) % 8 = 7
  · refine (congrArg Prod.snd (outsAt_last m c ⟨n + 1, h⟩ h0 h7)).trans ?_
    dsimp only
    rw [accLast_eq]
    refine funext fun (j : S8x512.Idx) => ?_
    obtain ⟨b, k, rfl⟩ : ∃ (b : Fin 8) (k : Fin 512), j = ix2 b k := ⟨j 0, j 1, eq_ix2 j⟩
    refine (Cert.KernelIdeal.Pay.pay2_apply (xb m c ⟨n + 1, h⟩) (nb m c ⟨n + 1, h⟩) (wb m c ⟨n + 1, h⟩) _ b k).trans ?_
    refine congrArg₂ (· + ·) (congrFun (congrArg Prod.snd (outsAt_congr m c _ n _ _ (Nat.add_sub_cancel n 1))) _) ?_
    show _ = chunkAt m c (n + 1) b k
    unfold chunkAt; rw [dif_pos h]
  · refine (congrArg Prod.snd (outsAt_mid m c ⟨n + 1, h⟩ h0 h7)).trans ?_
    dsimp only
    rw [accMid_eq]
    refine funext fun (j : S8x512.Idx) => ?_
    obtain ⟨b, k, rfl⟩ : ∃ (b : Fin 8) (k : Fin 512), j = ix2 b k := ⟨j 0, j 1, eq_ix2 j⟩
    refine (Cert.KernelIdeal.Pay.pay2_apply (xb m c ⟨n + 1, h⟩) (nb m c ⟨n + 1, h⟩) (wb m c ⟨n + 1, h⟩) _ b k).trans ?_
    refine congrArg₂ (· + ·) (congrFun (congrArg Prod.snd (outsAt_congr m c _ n _ _ (Nat.add_sub_cancel n 1))) _) ?_
    show _ = chunkAt m c (n + 1) b k
    unfold chunkAt; rw [dif_pos h]

/-- At a point that writes the output back the accumulator holds the sum of the eight addends of its row block. -/
theorem acc_flush (t : Fin cfg0.N) (h7 : t.val % 8 = 7) (b : Fin 8) (k : Fin 512) :
    (outsAt m c t.val t.isLt).2 (ix2 b k) = ∑ s ∈ Finset.range 8, chunk m c (8 * (t.val / 8) + s) (ix2 b k) := by
  have h' : 8 * (t.val / 8) + t.val % 8 < cfg0.N := by rw [Nat.div_add_mod]; exact t.isLt
  have e := Pipeline.eq_accAt_of_mod (fun n h => (outsAt m c n h).2) 8
      (fun n _ j => (0 : EReal) + chunk m c n j) (fun n _ acc j => acc j + chunk m c n j)
      (fun n h h0 => acc_reset m c n h h0) (fun n h h0 => acc_step m c n h h0) (by norm_num) t.val t.isLt h'
  refine (congrFun e (ix2 b k)).trans ?_
  have u := Pipeline.accAt_add_apply (fun n (_ : n < cfg0.N) j => (0 : EReal) + chunk m c n j)
      (fun n (_ : n < cfg0.N) acc j => acc j + chunk m c n j) (fun _ => (0 : EReal)) (chunk m c) (8 * (t.val / 8)) 7
      (fun _ _ => rfl) (fun _ _ _ _ _ _ => rfl) (t.val % 8) (by omega) h' (ix2 b k)
  rw [u, zero_add, h7]

/-! ## The eight chunk sums are the sum over the batch row's 2048 points -/

theorem chunks_eq_GK (i0 : Fin 8) (b : Fin 8) (k : Fin 512) (B : Fin 64) (hB : B.val = 8 * i0.val + b.val) :
    ∑ s ∈ Finset.range 8, chunk m c (8 * i0.val + s) (ix2 b k) = Cert.RbfSpec.GK (m ((c : Thread nD τ).loc main_arg0)) (m ((c : Thread nD τ).loc main_arg1)) (m ((c : Thread nD τ).loc main_arg2)) (m ((c : Thread nD τ).loc main_arg3)) (ix2 B k) := by
  rw [← Cert.TiledSum.sum_fin_eq_range 8 (fun s => chunk m c (8 * i0.val + s) (ix2 b k))]
  show _ = ∑ p : Fin 2048, Cert.RbfSpec.resp (Cert.RbfSpec.pt (m ((c : Thread nD τ).loc main_arg0)) B p) (Cert.RbfSpec.wrow (m ((c : Thread nD τ).loc main_arg2)) (m ((c : Thread nD τ).loc main_arg3)) k) * (m ((c : Thread nD τ).loc main_arg1)) (ix2 B p)
  rw [Cert.TiledSum.sum_tiles (show 8 * 256 = 2048 from rfl)]
  refine Finset.sum_congr rfl fun s _ => ?_
  have hlt : 8 * i0.val + s.val < cfg0.N := by
    rw [show cfg0.N = 64 from N_0]; have := i0.isLt; have := s.isLt; omega
  show chunkAt m c (8 * i0.val + s.val) b k = _
  unfold chunkAt; rw [dif_pos hlt]
  refine Finset.sum_congr rfl fun q _ => ?_
  have hd : (8 * i0.val + s.val) / 8 = i0.val := by have := s.isLt; omega
  have hr : (8 * i0.val + s.val) % 8 = s.val := by have := s.isLt; omega
  have hB' : B.val = 8 * ((⟨8 * i0.val + s.val, hlt⟩ : Fin cfg0.N).val / 8) + b.val := by
    show B.val = 8 * ((8 * i0.val + s.val) / 8) + b.val; rw [hd]; exact hB
  have hp' : (Cert.TiledSum.tile (show 8 * 256 = 2048 from rfl) s q).val = 256 * ((⟨8 * i0.val + s.val, hlt⟩ : Fin cfg0.N).val % 8) + q.val := by
    show 256 * s.val + q.val = 256 * ((8 * i0.val + s.val) % 8) + q.val; rw [hr]
  refine congrArg₂ (· * ·) (congrArg₂ Cert.RbfSpec.resp (funext fun d => ?_) (funext fun k' => ?_)) ?_
  · exact xb_apply m c ⟨8 * i0.val + s.val, hlt⟩ b q d B _ hB' hp'
  · exact wb_apply m c ⟨8 * i0.val + s.val, hlt⟩ k' k
  · exact nb_apply m c ⟨8 * i0.val + s.val, hlt⟩ b q B _ hB' hp'

/-! ## From the blocks to the array -/

/-- What a flushing point writes back is its block of `GK` of the argument arrays. -/
theorem flushed_eq (t : Fin cfg0.N) (hf : (cfg0.win 3).flush t = true) :
    (dats m 0 c).flushed 3 t = ((cfg0.win 3).blk t).view.read (Elt Ideal) (Cert.RbfSpec.GK (m ((c : Thread nD τ).loc main_arg0)) (m ((c : Thread nD τ).loc main_arg1)) (m ((c : Thread nD τ).loc main_arg2)) (m ((c : Thread nD τ).loc main_arg3))) := by
  have h7 : t.val % 8 = 7 := (flush0_3 t).mp hf
  have hN : t.val < 64 := lt_of_lt_of_eq t.isLt (show cfg0.N = 64 from N_0)
  show (cfg0.win 3).cut (grid0.coords t) ((dats m 0 c).after 3 t) = _
  rw [after3]
  have e1 : (outsAt m c t.val t.isLt).1 = (outsAt m c t.val t.isLt).2 := by
    rw [outsAt_last m c t (by omega) h7]; dsimp only; rw [outLast_eq, accLast_eq]
  refine funext fun (j : S8x512.Idx) => ?_
  obtain ⟨b, k, rfl⟩ : ∃ (b : Fin 8) (k : Fin 512), j = ix2 b k := ⟨j 0, j 1, eq_ix2 j⟩
  show (outsAt m c t.val t.isLt).1 (ix2 b k) = _
  rw [blk3_read c _ t b k ⟨8 * (t.val / 8) + b.val, by have := b.isLt; omega⟩ rfl, congrFun e1 _, acc_flush m c t h7 b k]
  exact chunks_eq_GK m c ⟨t.val / 8, by omega⟩ b k _ rfl

/-- An index of the result is in point `t`'s output block iff each coordinate is in the block's range on its axis. -/
theorem mem_blk3 (t : Fin cfg0.N) (i : S64x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v33).slice (win0_3.rect t)).set ↔ _
  rw [View.set_slice_whole, Rect.mem_set_unit]
  exact Iff.rfl

/-- Every entry of the result lies in the block of the point that finishes its row block. -/
theorem cover3 (i : S64x512.Idx) : ∃ t : Fin cfg0.N, (cfg0.win 3).flush t = true ∧ i ∈ ((cfg0.win 3).blk t).view.set := by
  have hi0 : (i 0).val < 64 := (i 0).isLt
  have hi1 : (i 1).val < 512 := (i 1).isLt
  have hlt : 8 * ((i 0).val / 8) + 7 < cfg0.N := by rw [show cfg0.N = 64 from N_0]; omega
  refine ⟨⟨8 * ((i 0).val / 8) + 7, hlt⟩, (flush0_3 _).mpr (by show (8 * ((i 0).val / 8) + 7) % 8 = 7; omega), ?_⟩
  rw [mem_blk3]
  obtain ⟨-, -, -, e0, e1⟩ := index_facts ⟨8 * ((i 0).val / 8) + 7, hlt⟩
  intro a
  match a with
  | ⟨0, _⟩ =>
    show win0_3.index _ (0 : Fin 2) * 8 ≤ (i 0).val ∧ (i 0).val < win0_3.index _ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_3.index _ (1 : Fin 2) * 512 ≤ (i 1).val ∧ (i 1).val < win0_3.index _ (1 : Fin 2) * 512 + 512
    rw [e1]; omega

/-- The result array after the run. -/
theorem final3 : (dats m 0 c).arrAt 3 cfg0.N = Cert.RbfSpec.GK (m ((c : Thread nD τ).loc main_arg0)) (m ((c : Thread nD τ).loc main_arg1)) (m ((c : Thread nD τ).loc main_arg2)) (m ((c : Thread nD τ).loc main_arg3)) :=
  (dats m 0 c).arrAt_eq_of_cover 3 _ (fun t hf => flushed_eq m c t hf) (cover3)

end Cert.KernelIdeal.Track

namespace Cert.KernelIdeal.Track

open Idealize.ShloMosaic Idealize.ShloMosaic.TcCoe Idealize.SL Idealize.SL.Sem Cert.KernelIdeal.Gen

/-- The idealized kernel's run, read: the result array is `GK` of the argument arrays, which end unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = Cert.RbfSpec.GK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main (F := Ideal) m ρ)

end Cert.KernelIdeal.Track

end
-- ==== Proof.RefSide.lean ====
/-
  The reference computes the result in the three-term spelling.

  Its operations, in order: the squared sharpness `s² = s · s`; `Σ_d ((s² · c) · c)` per centre; the two contractions
  `Σ_d x[b,p,d] · (s² · c)[n,d]` and `Σ_d (x · x)[b,p,d] · s²[n,d]`; the squared distance
  `(Σ_d s²c·c - 2 · Σ_d x·s²c) + Σ_d x²·s²`; its negation, the exponential, the product with the point's mask, and the sum
  over the 2048 points of the batch. Each stage read at an index is the corresponding piece of the specification: the
  sums over the axis of length 3 are the specification's sums term by term, the two sums' initial value is the zero word,
  and a broadcast reads its operand at the coordinates it keeps.
-/
import proofs.«105125_j77747497992595_2_alg».proof.Proof.Spec
import proofs.«105125_j77747497992595_2_alg».proof.Proof.Gen.ReferenceIdeal.Run
import proofs.«105125_j77747497992595_2_alg».proof.Proof.Gen.ReferenceIdeal.Read

noncomputable section

namespace Cert.RefSide

open Cert.ReferenceIdeal Cert.ReferenceIdeal.Gen Cert.ReferenceIdeal.Read
open Idealize.ShloMosaic Idealize.ShloMosaic.TcCoe Idealize.SL.Sem Idealize.ShloMosaic.ValueIdx
open Cert.RbfSpec

/-! ## The stages' index maps at coordinates -/

/-- Term `d` of the per-centre sum at centre `n` sits at `(n, d)`. -/
theorem idx_v3 (n : Fin 512) (d : Fin 3) : idx_main_v3 (ix1 n) d = ix2 n d :=
  funext fun a => Fin.ext (by match a with | ⟨0, _⟩ => rfl | ⟨1, _⟩ => rfl)

/-- The per-centre sum broadcast to `(b, p, n)` is read at centre `n`. -/
theorem idx_v8_v11 (b : Fin 64) (p : Fin 2048) (n : Fin 512) : idx_main_v8 (idx_main_v11 (ix3 b p n)) = ix1 n :=
  funext fun a => Fin.ext (by match a with | ⟨0, _⟩ => rfl)

/-- Term `d` of the point-centre contraction at `(b, p, n)` reads the point at `(b, p, d)` … -/
theorem lidx_v5 (b : Fin 64) (p : Fin 2048) (n : Fin 512) (d : Fin 3) : lidx_main_v5 (ix3 b p n) d = ix3 b p d :=
  funext fun a => Fin.ext (by match a with | ⟨0, _⟩ => rfl | ⟨1, _⟩ => rfl | ⟨2, _⟩ => rfl)
/-- … and the centre's row at `(n, d)`. -/
theorem ridx_v5 (b : Fin 64) (p : Fin 2048) (n : Fin 512) (d : Fin 3) : ridx_main_v5 (ix3 b p n) d = ix2 n d :=
  funext fun a => Fin.ext (by match a with | ⟨0, _⟩ => rfl | ⟨1, _⟩ => rfl)
/-- The same for the contraction of the squared point with the squared sharpness. -/
theorem lidx_v7 (b : Fin 64) (p : Fin 2048) (n : Fin 512) (d : Fin 3) : lidx_main_v7 (ix3 b p n) d = ix3 b p d :=
  funext fun a => Fin.ext (by match a with | ⟨0, _⟩ => rfl | ⟨1, _⟩ => rfl | ⟨2, _⟩ => rfl)
theorem ridx_v7 (b : Fin 64) (p : Fin 2048) (n : Fin 512) (d : Fin 3) : ridx_main_v7 (ix3 b p n) d = ix2 n d :=
  funext fun a => Fin.ext (by match a with | ⟨0, _⟩ => rfl | ⟨1, _⟩ => rfl)

/-- Term `p` of the sum over the points at `(b, n)` sits at `(b, p, n)`. -/
theorem idx_v19 (b : Fin 64) (n : Fin 512) (p : Fin 2048) : idx_main_v19 (ix2 b n) p = ix3 b p n :=
  funext fun a => Fin.ext (by match a with | ⟨0, _⟩ => rfl | ⟨1, _⟩ => rfl | ⟨2, _⟩ => rfl)

/-- The mask broadcast to `(b, p, n)` is read at `(b, p)`. -/
theorem idx_v16_v17 (b : Fin 64) (p : Fin 2048) (n : Fin 512) : idx_main_v16 (idx_main_v17 (ix3 b p n)) = ix2 b p :=
  funext fun a => Fin.ext (by match a with | ⟨0, _⟩ => rfl | ⟨1, _⟩ => rfl)

/-! ## The stages are the specification's pieces -/

/-- The per-centre sum is `Σ_d s²c · c`. -/
theorem v3_eq (c s : SC.Idx → EReal) (n : Fin 512) : val_main_v3 (F := Ideal) c s (ix1 n) = cc c s n := by
  rw [val_main_v3_apply, val_main_cst_apply]
  show _ = ∑ d : Fin 3, s2c c s n d * c (ix2 n d)
  refine (congrArg₂ (· + ·) Ideal.ofBits_zero_f32 (Finset.sum_congr rfl fun d _ => ?_)).trans (zero_add _)
  rw [idx_v3, val_main_v2_apply, val_main_v1_apply, val_main_v0_apply]
  rfl

/-- The squared-distance stage at `(b, p, n)` is the three-term squared distance of point `p` of batch `b` to centre `n`. -/
theorem v13_eq (x : SX.Idx → EReal) (c s : SC.Idx → EReal) (b : Fin 64) (p : Fin 2048) (n : Fin 512) :
    val_main_v13 (F := Ideal) x c s (ix3 b p n) = distR (pt x b p) c s n := by
  rw [val_main_v13_apply, val_main_v12_apply, val_main_v11_apply, val_main_v8_apply, idx_v8_v11, v3_eq,
    val_main_v10_apply, val_main_v9_apply, val_main_cst_0_apply, val_main_v5_apply, val_main_v7_apply]
  unfold distR
  refine congrArg₂ (· + ·) (congrArg₂ (· - ·) rfl (congrArg₂ (· * ·) rfl (Finset.sum_congr rfl fun d _ => ?_)))
    (Finset.sum_congr rfl fun d _ => ?_)
  · rw [lidx_v5, ridx_v5, val_main_v4_apply, val_main_v0_apply]; rfl
  · rw [lidx_v7, ridx_v7, val_main_v6_apply, val_main_v0_apply]; rfl

/-- The reference's last stage is the result in the three-term spelling. -/
theorem ref_is_GR (x : SX.Idx → EReal) (nd : SN.Idx → EReal) (c s : SC.Idx → EReal) :
    val_main_v19 (F := Ideal) x nd c s = GR x nd c s := by
  funext j
  obtain ⟨b, n, rfl⟩ : ∃ (b : Fin 64) (n : Fin 512), j = ix2 b n := ⟨j 0, j 1, eq_ix2 j⟩
  rw [val_main_v19_apply, val_main_cst_1_apply]
  show _ = ∑ p : Fin 2048, Ideal.exp (-(distR (pt x b p) c s n)) * nd (ix2 b p)
  refine (congrArg₂ (· + ·) Ideal.ofBits_zero_f32 (Finset.sum_congr rfl fun p _ => ?_)).trans (zero_add _)
  rw [idx_v19, val_main_v18_apply, val_main_v15_apply, val_main_v14_apply, v13_eq, val_main_v17_apply,
    val_main_v16_apply, idx_v16_v17]
  rfl

/-! ## The reference's run -/

/-- Every weakly fair execution of the reference terminates with its result the three-term spelling of the launch
contents of the arguments, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩
      (fun r => ∀ c : Dev Cert.ReferenceIdeal.nD,
        r.2.mem ((c.tc : Thread Cert.ReferenceIdeal.nD Cert.ReferenceIdeal.τ).loc Cert.ReferenceIdeal.main_v19)
          = Cert.RbfSpec.GR (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((val_main_v19_eq _ _ _ _).trans (ref_is_GR _ _ _ _)), (h c).2⟩)
    (Cert.ReferenceIdeal.Value.run (F := Ideal) m' ρ')

end Cert.RefSide

end
-- ==== Proof.Law.lean ====
/-
  The two spellings of the squared distance agree when every entry is a real number.

  With real entries the contraction of the eight features `(ξ₀, ξ₁, ξ₂, ξ₀², ξ₁², ξ₂², 1, 0)` with the weight row
  `(-2·s²c₀, -2·s²c₁, -2·s²c₂, s²₀, s²₁, s²₂, Σ_d s²c², 0)` is
  `Σ_d ξ_d · (-2 · s²c_d) + Σ_d ξ_d² · s²_d + Σ_d s²c_d · c_d`, and pulling the factor `-2` out of the first sum gives the
  three-term form `(Σ_d s²c_d · c_d - 2 · Σ_d ξ_d · s²c_d) + Σ_d ξ_d² · s²_d`. Pulling a factor out of a sum is
  distributivity, which holds in ℝ; so real witnesses are chosen for every entry, the coercion ℝ → EReal is pushed
  outwards through the products, sums, differences, and the identity is closed in ℝ.
-/
import proofs.«105125_j77747497992595_2_alg».proof.Proof.Spec
import Mathlib.Tactic.Ring
import Mathlib.Tactic.NormNum

noncomputable section

namespace Cert.RbfSpec

open Idealize.ShloMosaic Idealize.ShloMosaic.ValueIdx

/-- The word `0xC0000000` denotes the real number `-2`. -/
theorem negTwo_eq : negTwo = ((-2 : ℝ) : EReal) := by
  simp [negTwo, Ideal.ofBits, Ideal.ieee, -EReal.coe_mul]; norm_num

/-- The word `0x40000000` denotes the real number `2`. -/
theorem two_eq : two = ((2 : ℝ) : EReal) := by
  simp [two, Ideal.ofBits, Ideal.ieee, -EReal.coe_mul]; norm_num

/-- The contraction over the eight features, written out term by term. -/
theorem sum_feat_wrow (ξ : Fin 3 → EReal) (c s : SC.Idx → EReal) (n : Fin 512) :
    ∑ k : Fin 8, feat ξ k * wrow c s n k
      = ξ 0 * (negTwo * s2c c s n 0) + ξ 1 * (negTwo * s2c c s n 1) + ξ 2 * (negTwo * s2c c s n 2)
        + ξ 0 * ξ 0 * s2 s n 0 + ξ 1 * ξ 1 * s2 s n 1 + ξ 2 * ξ 2 * s2 s n 2 + 1 * cc c s n + 0 * 0 := by
  rw [Fin.sum_univ_eight]; rfl

/-- For a point and a centre with real entries, the contraction of the features with the weight row is the
three-term squared distance. -/
theorem dist_eq (ξ : Fin 3 → EReal) (c s : SC.Idx → EReal) (n : Fin 512)
    (hξ : ∀ d, ∃ r : ℝ, ξ d = (r : EReal)) (hc : AllReal c) (hs : AllReal s) :
    ∑ k : Fin 8, feat ξ k * wrow c s n k = distR ξ c s n := by
  choose rξ hξ using hξ
  choose rc hc using hc
  choose rs hs using hs
  rw [sum_feat_wrow]
  unfold distR cc s2c s2
  rw [Fin.sum_univ_three, Fin.sum_univ_three, Fin.sum_univ_three]
  simp only [hξ, hc, hs, negTwo_eq, two_eq, one_mul, mul_zero, add_zero]
  simp only [← EReal.coe_mul, ← EReal.coe_add, ← EReal.coe_sub]
  exact congrArg _ (by ring)

/-- With real points, centres and sharpnesses the two spellings of the result agree; the masks are arbitrary. -/
theorem GK_eq_GR (x : SX.Idx → EReal) (nd : SN.Idx → EReal) (c s : SC.Idx → EReal)
    (hx : AllReal x) (hc : AllReal c) (hs : AllReal s) : GK x nd c s = GR x nd c s := by
  funext j
  unfold GK GR
  refine Finset.sum_congr rfl (fun p _ => ?_)
  unfold resp
  rw [dist_eq (pt x (j 0) p) c s (j 1) (fun d => hx (ix3 (j 0) p d)) hc hs]

end Cert.RbfSpec

end
-- ==== Proof.Finite.lean ====
/-
  Finiteness: the precondition says of each argument array that every entry's absolute value is below +∞
  (the conjunction over all entries of `|a| < +∞`, the four arrays' verdicts joined by `and`). An extended real `x` with `max x (-x) < ⊤` is
  neither `⊤` nor `⊥` (for both, `max x (-x) = ⊤`), so it is a real number. Hence under the precondition every entry of the
  points, the centres and the sharpnesses is real; the masks' conjunct is not needed.
-/
import proofs.«105125_j77747497992595_2_alg».proof.Proof.Spec
import proofs.«105125_j77747497992595_2_alg».proof.Defs
import proofs.«105125_j77747497992595_2_alg».proof.Proof.Gen.Pre_finite_inputs
import Idealize.ShloMosaic.Lib.ReduceAll

noncomputable section

namespace Cert.Finite

open Idealize.ShloMosaic Idealize.SL.Sem Idealize.ShloMosaic.ValueIdx

/-- The rank-0 shape has one index. -/
instance : Subsingleton Cert.Pre_finite_inputs.S_.Idx := ⟨fun a b => funext fun d => d.elim0⟩

/-- An extended real whose absolute value compares below the word of +∞ is a real number. -/
theorem real_of_abs_lt (x : EReal)
    (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- One conjunct of the precondition, read back: if the `and` over all entries of `|a| < +∞` is 1, every entry of `a`
is real. -/
theorem allReal_of_all {S : Shape} {axes : List (Fin S.rank)} (a : S.Idx → EReal)
    (bc : Cert.Pre_finite_inputs.S_.BroadcastsInDim S (![] : Fin 0 → Fin S.rank))
    (red : S.ReducesTo axes Cert.Pre_finite_inputs.S_) (hu : 0 < Cert.Pre_finite_inputs.S_.numel)
    (e : Host.reduce IntOp.andi
          (cmpf (F := Ideal) (φ := .f32) .olt (Host.absf (F := Ideal) (φ := .f32) a)
            (broadcastInDim S ![] bc (constant (F := Ideal) Cert.Pre_finite_inputs.S_ .f32 0x7F800000#32)))
          (constantI Cert.Pre_finite_inputs.S_ 1 1#1) red hu ix0 = 1#1) :
    Cert.RbfSpec.AllReal a := by
  intro i
  exact real_of_abs_lt (a i) (Host.reduce_andi_all _ _ red hu ix0 e i)

/-- Under the precondition the points, the centres and the sharpnesses have only real entries. -/
theorem allReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.RbfSpec.AllReal (m ((c.tc : Thread Cert.KernelIdeal.nD Cert.KernelIdeal.τ).loc Cert.KernelIdeal.main_arg0))
    ∧ Cert.RbfSpec.AllReal (m ((c.tc : Thread _ _).loc Cert.KernelIdeal.main_arg2))
    ∧ Cert.RbfSpec.AllReal (m ((c.tc : Thread _ _).loc Cert.KernelIdeal.main_arg3)) := by
  have e := congrFun (h c) ix0
  dsimp only [Cert.Pre_finite_inputs.fn, Cert.Pre_finite_inputs.fn_part1, andi] at e
  obtain ⟨⟨⟨e0, -⟩, e2⟩, e3⟩ :=
    (IntOp.andi_eq_one.1 e).imp (fun e => (IntOp.andi_eq_one.1 e).imp (fun e => IntOp.andi_eq_one.1 e) id) id
  exact ⟨allReal_of_all _ _ _ _ e0, allReal_of_all _ _ _ _ e2, allReal_of_all _ _ _ _ e3⟩

end Cert.Finite

end
-- ==== Proof.lean ====
/-
  The certificate: the kernel against its reference, over the extended reals.

  Both programs compute, for each batch `b` and centre `n`, the sum over the 2048 points of the batch of
  `exp (-dist) · mask`, where `dist = Σ_d s²[n,d]·(c[n,d] - x_d)²`. The kernel spells `dist` as one contraction of
  eight point features with a weight row the host prepares and accumulates the sum over eight chunks of 256 points; the
  reference spells it in three terms and sums once. The kernel's run ends with the contraction form of the result
  (the frame run read point by point), the reference's with the three-term form (its run read operation by operation);
  the two forms agree when the points, centres and sharpnesses are real numbers, which the precondition gives:
  moving the factor -2 across a three-term sum is distributivity. The idealization rewrote nothing, so `preserves` is
  trivially true.
-/
import proofs.«105125_j77747497992595_2_alg».proof.Defs
import proofs.«105125_j77747497992595_2_alg».proof.Proof.Gen.Kernel
import proofs.«105125_j77747497992595_2_alg».proof.Proof.Gen.KernelIdeal
import proofs.«105125_j77747497992595_2_alg».proof.Proof.Gen.ReferenceIdeal
import proofs.«105125_j77747497992595_2_alg».proof.Proof.Gen.Pre_finite_inputs
import proofs.«105125_j77747497992595_2_alg».proof.Proof.Gen.ReferenceIdeal.Run
import proofs.«105125_j77747497992595_2_alg».proof.Proof.Gen.ReferenceIdeal.Read
import proofs.«105125_j77747497992595_2_alg».proof.Proof.BFrame
import proofs.«105125_j77747497992595_2_alg».proof.Proof.IValue
import proofs.«105125_j77747497992595_2_alg».proof.Proof.RefSide
import proofs.«105125_j77747497992595_2_alg».proof.Proof.Law
import proofs.«105125_j77747497992595_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel (hKernel := Cert.Kernel.Gen.facts) (hPre_finite_inputs := Cert.Pre_finite_inputs.Gen.facts) :=
  fun m ρ _ => Cert.Kernel.Track.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Track.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with equal results: the kernel's is the
    contraction form of the arguments, the reference's the three-term form, and with real entries these agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.RbfSpec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Track.value_run m ρ, ?_⟩
  refine (θ_run Cert.ReferenceIdeal.defs _ _).mono (fun _ h c => ⟨(h c).1.trans ?_, (h c).2⟩) (Cert.RefSide.ref_run m' ρ')
  rw [(hagree c).1, (hagree c).2.1, (hagree c).2.2.1, (hagree c).2.2.2]
  obtain ⟨hx, hc, hs⟩ := Cert.Finite.allReal_of_pre m hpre c
  exact (Cert.RbfSpec.GK_eq_GR _ _ _ _ hx hc hs).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
